-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x64x64 : Shape := ⟨3, ![4096, 64, 64]⟩
abbrev S64x64 : Shape := ⟨2, ![64, 64]⟩
abbrev S64 : Shape := ⟨1, ![64]⟩
abbrev S_ : Shape := ⟨0, ![]⟩

class Facts : Prop where
  bcast_S_S4096x64x64 : S_.BroadcastsInDim S4096x64x64 (![] : Fin 0 → Fin S4096x64x64.rank)
  reducesTo_S4096x64x64_S_d0_1_2 : S4096x64x64.ReducesTo [0, 1, 2] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn_part2 {F : FTy → Type} [FloatOps F] (main_arg7 : FVec F S64 .f32) (main_v33 : IVec S_ 1) : IVec S_ 1 :=
  let main_v34 : FVec F S64 .f32 := Host.absf main_arg7
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  main_v38

def fn_part1 {F : FTy → Type} [FloatOps F] (main_arg4 : FVec F S64x64 .f32) (main_arg5 : FVec F S64 .f32) (main_arg6 : FVec F S64x64 .f32) (main_arg7 : FVec F S64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x64 .f32 := Host.absf main_arg4
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg5
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x64 .f32 := Host.absf main_arg6
  let main_cst_10 : FVec F S_ .f32 := constant S_ .f32 0x7F800000#32
  let main_v30 : FVec F S64x64 .f32 := broadcastInDim S64x64 ![] bcast_S_S64x64 main_cst_10
  let main_v31 : IVec S64x64 1 := cmpf .olt main_v29 main_v30
  let main_c_11 : IVec S_ 1 := constantI S_ 1 1#1
  let main_v32 : IVec S_ 1 := (fun x v => Host.reduce IntOp.andi x v reducesTo_S64x64_S_d0_1 h_S_) main_v31 main_c_11
  let main_v33 : IVec S_ 1 := andi main_v28 main_v32
  fn_part2 (F := F) main_arg7 main_v33

def fn {F : FTy → Type} [FloatOps F] (main_arg0 : FVec F S4096x64x64 .f32) (main_arg1 : FVec F S4096x64x64 .f32) (main_arg2 : FVec F S64x64 .f32) (main_arg3 : FVec F S64 .f32) (main_arg4 : FVec F S64x64 .f32) (main_arg5 : FVec F S64 .f32) (main_arg6 : FVec F S64x64 .f32) (main_arg7 : FVec F S64 .f32) : IVec S_ 1 :=
  let main_v0 : FVec F S4096x64x64 .f32 := Host.absf main_arg0
  let main_cst : FVec F S_ .f32 := constant S_ .f32 0x7F800000#32
  let main_v1 : FVec F S4096x64x64 .f32 := broadcastInDim S4096x64x64 ![] bcast_S_S4096x64x64 main_cst
  let main_v2 : IVec S4096x64x64 1 := cmpf .olt main_v0 main_v1
  let main_c : IVec S_ 1 := constantI S_ 1 1#1
  let main_v3 : IVec S_ 1 := (fun x v => Host.reduce IntOp.andi x v reducesTo_S4096x64x64_S_d0_1_2 h_S_) main_v2 main_c
  let main_v4 : FVec F S4096x64x64 .f32 := Host.absf main_arg1
  let main_cst_0 : FVec F S_ .f32 := constant S_ .f32 0x7F800000#32
  let main_v5 : FVec F S4096x64x64 .f32 := broadcastInDim S4096x64x64 ![] bcast_S_S4096x64x64 main_cst_0
  let main_v6 : IVec S4096x64x64 1 := cmpf .olt main_v4 main_v5
  let main_c_1 : IVec S_ 1 := constantI S_ 1 1#1
  let main_v7 : IVec S_ 1 := (fun x v => Host.reduce IntOp.andi x v reducesTo_S4096x64x64_S_d0_1_2 h_S_) main_v6 main_c_1
  let main_v8 : IVec S_ 1 := andi main_v3 main_v7
  let main_v9 : FVec F S64x64 .f32 := Host.absf main_arg2
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64 .f32 := Host.absf main_arg3
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg4 main_arg5 main_arg6 main_arg7 main_v13 main_v16
-- ==== Kernel.lean ====
abbrev S4096x64x64 : Shape := ⟨3, ![4096, 64, 64]⟩
abbrev S64x64 : Shape := ⟨2, ![64, 64]⟩
abbrev S64 : Shape := ⟨1, ![64]⟩
abbrev S4096x64 : Shape := ⟨2, ![4096, 64]⟩
abbrev S256x64x64 : Shape := ⟨3, ![256, 64, 64]⟩
abbrev S256x64 : Shape := ⟨2, ![256, 64]⟩
abbrev S16384x64 : Shape := ⟨2, ![16384, 64]⟩
abbrev S1x64 : Shape := ⟨2, ![1, 64]⟩
abbrev S128x64x64 : Shape := ⟨3, ![128, 64, 64]⟩
abbrev S8192x64 : Shape := ⟨2, ![8192, 64]⟩
abbrev S128x64 : Shape := ⟨2, ![128, 64]⟩
abbrev S128x64x1 : Shape := ⟨3, ![128, 64, 1]⟩

abbrev nBuf : Space → Nat
  | .hbm => 16
  | .vmem => 19
  | .smem => 0
  | _ => 0

abbrev bufTy : (tb : Table) → Fin (tcTables nBuf tb) → BufTy
  | .hbm, ⟨0, _⟩ => ⟨S4096x64x64, .f32⟩
  | .hbm, ⟨1, _⟩ => ⟨S4096x64x64, .f32⟩
  | .hbm, ⟨2, _⟩ => ⟨S64x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S64x64, .f32⟩
  | .hbm, ⟨9, _⟩ => ⟨S64x64, .bf16⟩
  | .hbm, ⟨10, _⟩ => ⟨S64x64, .f32⟩
  | .hbm, ⟨11, _⟩ => ⟨S64x64, .bf16⟩
  | .hbm, ⟨12, _⟩ => ⟨S64x64, .f32⟩
  | .hbm, ⟨13, _⟩ => ⟨S64x64, .bf16⟩
  | .hbm, ⟨14, _⟩ => ⟨S4096x64, .f32⟩
  | .hbm, ⟨15, _⟩ => ⟨S4096x64x64, .f32⟩
  | .local _ .vmem, ⟨0, _⟩ => ⟨S256x64x64, .f32⟩
  | .local _ .vmem, ⟨1, _⟩ => ⟨S256x64x64, .f32⟩
  | .local _ .vmem, ⟨2, _⟩ => ⟨S256x64x64, .f32⟩
  | .local _ .vmem, ⟨3, _⟩ => ⟨S256x64x64, .f32⟩
  | .local _ .vmem, ⟨4, _⟩ => ⟨S64x64, .bf16⟩
  | .local _ .vmem, ⟨5, _⟩ => ⟨S64, .f32⟩
  | .local _ .vmem, ⟨6, _⟩ => ⟨S64x64, .bf16⟩
  | .local _ .vmem, ⟨7, _⟩ => ⟨S64, .f32⟩
  | .local _ .vmem, ⟨8, _⟩ => ⟨S256x64, .f32⟩
  | .local _ .vmem, ⟨9, _⟩ => ⟨S256x64, .f32⟩
  | .local _ .vmem, ⟨10, _⟩ => ⟨S128x64x64, .f32⟩
  | .local _ .vmem, ⟨11, _⟩ => ⟨S128x64x64, .f32⟩
  | .local _ .vmem, ⟨12, _⟩ => ⟨S128x64x64, .f32⟩
  | .local _ .vmem, ⟨13, _⟩ => ⟨S128x64x64, .f32⟩
  | .local _ .vmem, ⟨14, _⟩ => ⟨S64x64, .bf16⟩
  | .local _ .vmem, ⟨15, _⟩ => ⟨S64, .f32⟩
  | .local _ .vmem, ⟨16, _⟩ => ⟨S4096x64, .f32⟩
  | .local _ .vmem, ⟨17, _⟩ => ⟨S128x64x64, .f32⟩
  | .local _ .vmem, ⟨18, _⟩ => ⟨S128x64x64, .f32⟩
  | _, _ => ⟨S4096x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg5_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem3_0 : DmaSem sig := 15
abbrev cc1_sem4_0 : DmaSem sig := 16
abbrev cc1_sem5_0 : DmaSem sig := 17
abbrev cc1_sem5_1 : DmaSem sig := 18

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x64x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x64x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x64 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x64 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![32], ![false]⟩

def k1_mult1 (i : grid1.Coords) : BitVec 32 :=
  let arg0 : BitVec 32 := BitVec.ofNat 32 (i 0).val
  let c128_i32 : BitVec 32 := 128#32
  let v21 : BitVec 32 := Scalar.muli arg0 c128_i32
  v21
def k1_off1 (i : grid1.Coords) : Fin 2 → Nat :=
  let arg0 : BitVec 32 := BitVec.ofNat 32 (i 0).val
  let c128_i32 : BitVec 32 := 128#32
  let v21 : BitVec 32 := Scalar.muli arg0 c128_i32
  let v22 : BitVec 32 := v21
  let v23 : Index := Scalar.indexCast v22
  let c0_12 : Index := 0#32
  ![v23.toNat, 0]
def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S128x64x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S128x64x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x64 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S4096x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S128x64x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  transposes_S64x64_S64x64_1_0 : S64x64.Transposes [1, 0] S64x64
  bitsLt_bf16_f32 : FTy.bits .bf16 < FTy.bits .f32
  inb_S256x64x64_S256x64x64_0_0_0 : ∀ a, (![0, 0, 0] : Fin 3 → Nat) a + S256x64x64.size a ≤ S256x64x64.size a
  h_S256x64x64 : 0 < S256x64x64.numel
  shapeCasts_S256x64x64_S16384x64 : S256x64x64.ShapeCasts S16384x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S64_S64_0 : ∀ a, (![0] : Fin 1 → Nat) a + S64.size a ≤ S64.size a
  h_S64 : 0 < S64.numel
  shapeCasts_S64_S1x64 : S64.ShapeCasts S1x64
  broadcasts_S1x64_S16384x64 : S1x64.Broadcasts S16384x64
  shapeCasts_S16384x64_S256x64x64 : S16384x64.ShapeCasts S256x64x64
  reduces_S256x64x64_S256x64 : S256x64x64.Reduces [2] S256x64
  inb_S256x64_S256x64_0_0 : ∀ a, (![0, 0] : Fin 2 → Nat) a + S256x64.size a ≤ S256x64.size a
  h_S256x64 : 0 < S256x64.numel
  inb_S128x64x64_S128x64x64_0_0_0 : ∀ a, (![0, 0, 0] : Fin 3 → Nat) a + S128x64x64.size a ≤ S128x64x64.size a
  h_S128x64x64 : 0 < S128x64x64.numel
  shapeCasts_S128x64x64_S8192x64 : S128x64x64.ShapeCasts S8192x64
  broadcasts_S1x64_S8192x64 : S1x64.Broadcasts S8192x64
  shapeCasts_S8192x64_S128x64x64 : S8192x64.ShapeCasts S128x64x64
  inb_S4096x64_S4096x64_0_0 : ∀ a, (![0, 0] : Fin 2 → Nat) a + S4096x64.size a ≤ S4096x64.size a
  h_S4096x64 : 0 < S4096x64.numel
  shapeCasts_S4096x64_S4096x64 : S4096x64.ShapeCasts S4096x64
  reduces_S4096x64_S64 : S4096x64.Reduces [0] S64
  broadcasts_S1x64_S4096x64 : S1x64.Broadcasts S4096x64
  h_S128x64 : 0 < S128x64.numel
  shapeCasts_S128x64_S128x64 : S128x64.ShapeCasts S128x64
  broadcasts_S1x64_S128x64 : S1x64.Broadcasts S128x64
  shapeCasts_S128x64_S128x64x1 : S128x64.ShapeCasts S128x64x1
  broadcasts_S128x64x1_S128x64x64 : S128x64x1.Broadcasts S128x64x64
  dot_S16384x64_S64x64_S16384x64_1_0_0_1_n_n_wf : DotDims.WF S16384x64 S64x64 S16384x64 [1] [0] [0] [1] [] []
  dot_S8192x64_S64x64_S8192x64_1_0_0_1_n_n_wf : DotDims.WF S8192x64 S64x64 S8192x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x64x64.size a ≤ S4096x64x64.size a
  hwx0_0 : ∀ i : grid0.Coords, EltTy.bits .f32 = 32 ∨ (Rect.block (s := S4096x64x64) S256x64x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x64x64.size a ≤ S4096x64x64.size a
  hwx0_1 : ∀ i : grid0.Coords, EltTy.bits .f32 = 32 ∨ (Rect.block (s := S4096x64x64) S256x64x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .bf16 = 32 ∨ (Rect.block (s := S64x64) S64x64.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64.size a ≤ S64.size a
  hwx0_3 : ∀ i : grid0.Coords, EltTy.bits .f32 = 32 ∨ (Rect.block (s := S64) S64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x64.size a ≤ S64x64.size a
  hwx0_4 : ∀ i : grid0.Coords, EltTy.bits .bf16 = 32 ∨ (Rect.block (s := S64x64) S64x64.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64.size a ≤ S64.size a
  hwx0_5 : ∀ i : grid0.Coords, EltTy.bits .f32 = 32 ∨ (Rect.block (s := S64) S64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S256x64.size a ≤ S4096x64.size a
  hwx0_6 : ∀ i : grid0.Coords, EltTy.bits .f32 = 32 ∨ (Rect.block (s := S4096x64) S256x64.size (cc0_transform_6 i) (hinb0_6 i)).WholeWords (EltTy.packing .f32)
  hrank1 : 0 < grid1.rank
  k1_mult1_dvd : ∀ i : grid1.Coords, 128 ∣ (k1_mult1 i).toNat
  k1_off1_inb : ∀ i : grid1.Coords, ∀ a, (k1_off1 i) a + S128x64.size a ≤ S4096x64.size a
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S128x64x64.size a ≤ S4096x64x64.size a
  hwx1_0 : ∀ i : grid1.Coords, EltTy.bits .f32 = 32 ∨ (Rect.block (s := S4096x64x64) S128x64x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S128x64x64.size a ≤ S4096x64x64.size a
  hwx1_1 : ∀ i : grid1.Coords, EltTy.bits .f32 = 32 ∨ (Rect.block (s := S4096x64x64) S128x64x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .bf16 = 32 ∨ (Rect.block (s := S64x64) S64x64.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64.size a ≤ S64.size a
  hwx1_3 : ∀ i : grid1.Coords, EltTy.bits .f32 = 32 ∨ (Rect.block (s := S64) S64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S4096x64.size a ≤ S4096x64.size a
  hwx1_4 : ∀ i : grid1.Coords, EltTy.bits .f32 = 32 ∨ (Rect.block (s := S4096x64) S4096x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S128x64x64.size a ≤ S4096x64x64.size a
  hwx1_5 : ∀ i : grid1.Coords, EltTy.bits .f32 = 32 ∨ (Rect.block (s := S4096x64x64) S128x64x64.size (cc1_transform_5 i) (hinb1_5 i)).WholeWords (EltTy.packing .f32)

variable [Facts₀]

def dot_S16384x64_S64x64_S16384x64_1_0_0_1_n_n : DotDims S16384x64 S64x64 S16384x64 where
  lhsContracting := [1]
  rhsContracting := [0]
  lhsNonContracting := [0]
  rhsNonContracting := [1]
  lhsBatch := []
  rhsBatch := []
  wf := dot_S16384x64_S64x64_S16384x64_1_0_0_1_n_n_wf
def dot_S8192x64_S64x64_S8192x64_1_0_0_1_n_n : DotDims S8192x64 S64x64 S8192x64 where
  lhsContracting := [1]
  rhsContracting := [0]
  lhsNonContracting := [0]
  rhsNonContracting := [1]
  lhsBatch := []
  rhsBatch := []
  wf := dot_S8192x64_S64x64_S8192x64_1_0_0_1_n_n_wf

abbrev win0_0 : Pipeline.Window sig grid0 :=
  Pipeline.Window.ofSpec (Memref.whole main_arg0) S256x64x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x64x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S64x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v6) S256x64.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_arg0) S128x64x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S128x64x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v5) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg7) S64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v6) S4096x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v7) S128x64x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S4096x64x64 : Shape := ⟨3, ![4096, 64, 64]⟩
abbrev S64x64 : Shape := ⟨2, ![64, 64]⟩
abbrev S64 : Shape := ⟨1, ![64]⟩
abbrev S1x1x64 : Shape := ⟨3, ![1, 1, 64]⟩
abbrev S_ : Shape := ⟨0, ![]⟩
abbrev S4096x64 : Shape := ⟨2, ![4096, 64]⟩
abbrev S4096x64x1 : Shape := ⟨3, ![4096, 64, 1]⟩
abbrev S64x1 : Shape := ⟨2, ![64, 1]⟩
abbrev S1x64x1 : Shape := ⟨3, ![1, 64, 1]⟩

abbrev nBuf : Space → Nat
  | .hbm => 44
  | .vmem => 0
  | .smem => 0
  | _ => 0

abbrev bufTy : (tb : Table) → Fin (tcTables nBuf tb) → BufTy
  | .hbm, ⟨0, _⟩ => ⟨S4096x64x64, .f32⟩
  | .hbm, ⟨1, _⟩ => ⟨S4096x64x64, .f32⟩
  | .hbm, ⟨2, _⟩ => ⟨S64x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S4096x64x64, .f32⟩
  | .hbm, ⟨9, _⟩ => ⟨S1x1x64, .f32⟩
  | .hbm, ⟨10, _⟩ => ⟨S4096x64x64, .f32⟩
  | .hbm, ⟨11, _⟩ => ⟨S4096x64x64, .f32⟩
  | .hbm, ⟨12, _⟩ => ⟨S4096x64x64, .f32⟩
  | .hbm, ⟨13, _⟩ => ⟨S1x1x64, .f32⟩
  | .hbm, ⟨14, _⟩ => ⟨S4096x64x64, .f32⟩
  | .hbm, ⟨15, _⟩ => ⟨S4096x64x64, .f32⟩
  | .hbm, ⟨16, _⟩ => ⟨S4096x64x64, .f32⟩
  | .hbm, ⟨17, _⟩ => ⟨S1x1x64, .f32⟩
  | .hbm, ⟨18, _⟩ => ⟨S4096x64x64, .f32⟩
  | .hbm, ⟨19, _⟩ => ⟨S4096x64x64, .f32⟩
  | .hbm, ⟨20, _⟩ => ⟨S4096x64x64, .f32⟩
  | .hbm, ⟨21, _⟩ => ⟨S_, .f32⟩
  | .hbm, ⟨22, _⟩ => ⟨S4096x64, .f32⟩
  | .hbm, ⟨23, _⟩ => ⟨S4096x64x1, .f32⟩
  | .hbm, ⟨24, _⟩ => ⟨S_, .f32⟩
  | .hbm, ⟨25, _⟩ => ⟨S4096x64x1, .f32⟩
  | .hbm, ⟨26, _⟩ => ⟨S4096x64x1, .f32⟩
  | .hbm, ⟨27, _⟩ => ⟨S_, .f32⟩
  | .hbm, ⟨28, _⟩ => ⟨S64x1, .f32⟩
  | .hbm, ⟨29, _⟩ => ⟨S_, .f32⟩
  | .hbm, ⟨30, _⟩ => ⟨S64x1, .f32⟩
  | .hbm, ⟨31, _⟩ => ⟨S64x1, .f32⟩
  | .hbm, ⟨32, _⟩ => ⟨S1x64x1, .f32⟩
  | .hbm, ⟨33, _⟩ => ⟨S4096x64x1, .f32⟩
  | .hbm, ⟨34, _⟩ => ⟨S4096x64x1, .f32⟩
  | .hbm, ⟨35, _⟩ => ⟨S4096x64x1, .f32⟩
  | .hbm, ⟨36, _⟩ => ⟨S_, .f32⟩
  | .hbm, ⟨37, _⟩ => ⟨S64x1, .f32⟩
  | .hbm, ⟨38, _⟩ => ⟨S1x64x1, .f32⟩
  | .hbm, ⟨39, _⟩ => ⟨S4096x64x1, .f32⟩
  | .hbm, ⟨40, _⟩ => ⟨S4096x64x1, .f32⟩
  | .hbm, ⟨41, _⟩ => ⟨S4096x64x64, .f32⟩
  | .hbm, ⟨42, _⟩ => ⟨S4096x64x64, .f32⟩
  | .hbm, ⟨43, _⟩ => ⟨S4096x64x64, .f32⟩
  | _, _ => ⟨S4096x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst : Ref sig .tc := ⟨.hbm, 21, rfl⟩
abbrev main_v13 : Ref sig .tc := ⟨.hbm, 22, rfl⟩
abbrev main_v14 : Ref sig .tc := ⟨.hbm, 23, rfl⟩
abbrev main_cst_0 : Ref sig .tc := ⟨.hbm, 24, rfl⟩
abbrev main_v15 : Ref sig .tc := ⟨.hbm, 25, rfl⟩
abbrev main_v16 : Ref sig .tc := ⟨.hbm, 26, rfl⟩
abbrev main_cst_1 : Ref sig .tc := ⟨.hbm, 27, rfl⟩
abbrev main_v17 : Ref sig .tc := ⟨.hbm, 28, rfl⟩
abbrev main_cst_2 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_3 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩

abbrev nD : Nat := 1
abbrev τ : Topo := Topo.v7x

variable {F : FTy → Type} [FloatOps F]

class Facts₀ : Prop where
  bcast_S64_S1x1x64_2 : S64.BroadcastsInDim S1x1x64 (![2] : Fin 1 → Fin S1x1x64.rank)
  bcast_S1x1x64_S4096x64x64_0_1_2 : S1x1x64.BroadcastsInDim S4096x64x64 (![0, 1, 2] : Fin 3 → Fin S4096x64x64.rank)
  reducesTo_S4096x64x64_S4096x64_d2 : S4096x64x64.ReducesTo [2] S4096x64
  h_S_ : 0 < S_.numel
  bcast_S4096x64_S4096x64x1_0_1 : S4096x64.BroadcastsInDim S4096x64x1 (![0, 1] : Fin 2 → Fin S4096x64x1.rank)
  bcast_S_S4096x64x1 : S_.BroadcastsInDim S4096x64x1 (![] : Fin 0 → Fin S4096x64x1.rank)
  reducesTo_S4096x64x1_S64x1_d0 : S4096x64x1.ReducesTo [0] S64x1
  bcast_S_S64x1 : S_.BroadcastsInDim S64x1 (![] : Fin 0 → Fin S64x1.rank)
  bcast_S64x1_S1x64x1_1_2 : S64x1.BroadcastsInDim S1x64x1 (![1, 2] : Fin 2 → Fin S1x64x1.rank)
  bcast_S1x64x1_S4096x64x1_0_1_2 : S1x64x1.BroadcastsInDim S4096x64x1 (![0, 1, 2] : Fin 3 → Fin S4096x64x1.rank)
  bcast_S4096x64x1_S4096x64x64_0_1_2 : S4096x64x1.BroadcastsInDim S4096x64x64 (![0, 1, 2] : Fin 3 → Fin S4096x64x64.rank)
  dot_S4096x64x64_S64x64_S4096x64x64_2_1_01_0_n_n_wf : DotDims.WF S4096x64x64 S64x64 S4096x64x64 [2] [1] [0, 1] [0] [] []

variable [Facts₀]

def dot_S4096x64x64_S64x64_S4096x64x64_2_1_01_0_n_n : DotDims S4096x64x64 S64x64 S4096x64x64 where
  lhsContracting := [2]
  rhsContracting := [1]
  lhsNonContracting := [0, 1]
  rhsNonContracting := [0]
  lhsBatch := []
  rhsBatch := []
  wf := dot_S4096x64x64_S64x64_S4096x64x64_2_1_01_0_n_n_wf

class Facts : Prop extends Facts₀ where

variable [Facts]
-- ==== Proof.KernelRun.lean ====
/-
  The idealized kernel's whole run, with the result array named.

  The program is a stretch of host operations (three transposes, each followed by a change of float format), then two
  kernel regions. The buffer contents at the three boundaries are a fold from the launch memory: after the host stretch,
  after the first region (its arrays at what its write-backs leave), after the second region likewise. Every weakly
  fair execution terminates without a fault in a state whose unscoped buffers hold the last boundary's contents; read
  at the result array this says what the second region's write-backs left there, and read at the eight arguments that
  they are as launched.
-/
import proofs.«118970_j52578989638287_2_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with the result array at the last
    boundary's contents and the eight argument arrays as launched. -/
theorem run_boundary : θ_run defs (onTc (τ := τ) (main (F := F))) ⟨m, fun _ => 0, ρ⟩ (fun r => ∀ c : Dev nD,
      r.2.mem ((c.tc : Thread nD τ).loc main_v7) = W3 m ρ c (Proc.devRef .tc main_v7)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c =>
      ⟨h c _ (mem_uc main_v7 (by decide)),
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c),
       (h c _ (mem_uc main_arg3 (by decide))).trans (W3_main_arg3 m ρ c),
       (h c _ (mem_uc main_arg4 (by decide))).trans (W3_main_arg4 m ρ c),
       (h c _ (mem_uc main_arg5 (by decide))).trans (W3_main_arg5 m ρ c),
       (h c _ (mem_uc main_arg6 (by decide))).trans (W3_main_arg6 m ρ c),
       (h c _ (mem_uc main_arg7 (by decide))).trans (W3_main_arg7 m ρ c)⟩)

/-- The last boundary's contents at the result array are what the second region's write-backs leave in its output. -/
theorem boundary_result (c : Dev nD) :
    W3 m ρ c (Proc.devRef .tc main_v7) = (dat1 (V2 m ρ) c).arrAt 5 cfg1.N := W3_arr m ρ c 5

/-- The second region finds the first region's output array at what the first region's write-backs left there. -/
theorem boundary_score (c : Dev nD) :
    V2 m ρ c main_v6 = (dat0 (V1 m ρ) c).arrAt 6 cfg0.N := W2_arr m ρ c 6

end Cert.KernelIdeal.Whole

end
-- ==== Proof.Spec.lean ====
/-
  The function both programs compute, over the extended reals.

  From two sequences x, y of shape [4096, 64, 64] (time t, stream s, feature d), three 64 × 64 weight matrices and
  three bias rows:
    a linear layer        lin x W b (t, s, o) = (∑ d, x (t, s, d) · W (o, d)) + b o;
    the gating score      score (t, s) = (∑ o, lin x Wq bq (t, s, o) · lin y Wk bk (t, s, o)) · (1/8 as the word 0x3E000000);
    down each column s of the [4096, 64] score array, the maximum over t (folded from the word 0xFF800000, the least
    extended real) and the normalizer ∑ t, exp (score (t, s) − maximum s);
    the weight            attn (t, s) = exp (score (t, s) − maximum s) / normalizer s;
    the result            x (t, s, d) + attn (t, s) · lin y Wv bv (t, s, d).
  The score enters the last three as an array argument, so that a program which first stores the score array and then
  reads it back is described by the same terms. Float words are kept as words: the same word stands on both sides of
  every equation proved from these definitions and is never evaluated.
-/
import Idealize.ShloMosaic.PureOps.Ideal.Laws
import Idealize.ShloMosaic.Lib.ValueIdx

noncomputable section

open scoped BigOperators

namespace Cert.Attn

open Idealize.ShloMosaic Idealize.ShloMosaic.ValueIdx

/-- A sequence array [time, stream, feature]. -/
abbrev Seq : Shape := ⟨3, ![4096, 64, 64]⟩
/-- A weight matrix. -/
abbrev Mat : Shape := ⟨2, ![64, 64]⟩
/-- A bias row. -/
abbrev Row : Shape := ⟨1, ![64]⟩
/-- The score array [time, stream]. -/
abbrev Gate : Shape := ⟨2, ![4096, 64]⟩

/-- A matrix with its two coordinates exchanged. -/
def swap (M : Mat.Idx → EReal) : Mat.Idx → EReal := fun i => M (ix2 (i 1) (i 0))

theorem swap_ix2 (M : Mat.Idx → EReal) (a b : Fin 64) : swap M (ix2 a b) = M (ix2 b a) := rfl

/-- The linear layer at (t, s, o): the row x (t, s, ·) against row o of W, plus b o. -/
def lin (x : Seq.Idx → EReal) (W : Mat.Idx → EReal) (b : Row.Idx → EReal) (t : Fin 4096) (s : Fin 64) (o : Fin 64) : EReal :=
  (∑ d : Fin 64, x (ix3 t s d) * W (ix2 o d)) + b (ix1 o)

/-- The gating score at (t, s). -/
def scoreAt (x y : Seq.Idx → EReal) (Wq : Mat.Idx → EReal) (bq : Row.Idx → EReal) (Wk : Mat.Idx → EReal)
    (bk : Row.Idx → EReal) (t : Fin 4096) (s : Fin 64) : EReal :=
  (∑ o : Fin 64, lin x Wq bq t s o * lin y Wk bk t s o) * Ideal.ofBits .f32 0x3E000000#32

/-- The score array. -/
def score (x y : Seq.Idx → EReal) (Wq : Mat.Idx → EReal) (bq : Row.Idx → EReal) (Wk : Mat.Idx → EReal)
    (bk : Row.Idx → EReal) : Gate.Idx → EReal :=
  fun j => scoreAt x y Wq bq Wk bk (j 0) (j 1)

theorem score_ix2 (x y : Seq.Idx → EReal) (Wq : Mat.Idx → EReal) (bq : Row.Idx → EReal) (Wk : Mat.Idx → EReal)
    (bk : Row.Idx → EReal) (t : Fin 4096) (s : Fin 64) :
    score x y Wq bq Wk bk (ix2 t s) = scoreAt x y Wq bq Wk bk t s := rfl

/-- The maximum of column s of a score array, folded from the least extended real. -/
def colMax (sc : Gate.Idx → EReal) (s : Fin 64) : EReal :=
  (Finset.univ : Finset (Fin 4096)).fold max (Ideal.ofBits .f32 0xFF800000#32) (fun t => sc (ix2 t s))

/-- The normalizer of column s: the sum over time of exp (score − column maximum). -/
def colDen (sc : Gate.Idx → EReal) (s : Fin 64) : EReal :=
  ∑ t : Fin 4096, Ideal.exp (sc (ix2 t s) - colMax sc s)

/-- The weight of (t, s). -/
def attn (sc : Gate.Idx → EReal) (t : Fin 4096) (s : Fin 64) : EReal :=
  Ideal.div (Ideal.exp (sc (ix2 t s) - colMax sc s)) (colDen sc s)

/-- The result at (t, s, d), from a score array. -/
def outAt (x y : Seq.Idx → EReal) (Wv : Mat.Idx → EReal) (bv : Row.Idx → EReal) (sc : Gate.Idx → EReal)
    (t : Fin 4096) (s : Fin 64) (d : Fin 64) : EReal :=
  x (ix3 t s d) + attn sc t s * lin y Wv bv t s d

/-- The result array, from a score array. -/
def out (x y : Seq.Idx → EReal) (Wv : Mat.Idx → EReal) (bv : Row.Idx → EReal) (sc : Gate.Idx → EReal) : Seq.Idx → EReal :=
  fun j => outAt x y Wv bv sc (j 0) (j 1) (j 2)

theorem out_ix3 (x y : Seq.Idx → EReal) (Wv : Mat.Idx → EReal) (bv : Row.Idx → EReal) (sc : Gate.Idx → EReal)
    (t : Fin 4096) (s : Fin 64) (d : Fin 64) : out x y Wv bv sc (ix3 t s d) = outAt x y Wv bv sc t s d := rfl

/-- The whole function of the eight arguments. -/
def result (x y : Seq.Idx → EReal) (Wq : Mat.Idx → EReal) (bq : Row.Idx → EReal) (Wk : Mat.Idx → EReal)
    (bk : Row.Idx → EReal) (Wv : Mat.Idx → EReal) (bv : Row.Idx → EReal) : Seq.Idx → EReal :=
  out x y Wv bv (score x y Wq bq Wk bk)

end Cert.Attn

end
-- ==== Proof.Entry.lean ====
/-
  What the two regions find in the buffers they read.

  Before the first region the host transposes each weight matrix and changes its float format, which over the
  extended reals is the identity: the matrix a region is handed, with its coordinates exchanged, is the weight as
  launched. No host operation and no region writes an argument array, so a region finds each argument as launched. The
  first region writes only its output array, so the second region finds everything else as the first one did.
-/
import proofs.«118970_j52578989638287_2_alg».proof.Proof.Gen.KernelIdeal.Frame
import proofs.«118970_j52578989638287_2_alg».proof.Proof.Spec
import Idealize.ShloMosaic.Lib.StableHlo.Run
import Idealize.ShloMosaic.Lib.ValueLayout
import Idealize.ShloMosaic.Lib.Tactic

set_option maxRecDepth 16384

noncomputable section

namespace Cert.KernelIdeal.Entry

open Cert.KernelIdeal Cert.KernelIdeal.Gen
open Idealize.ShloMosaic Idealize.ShloMosaic.TcCoe Idealize.SL.Sem Idealize.ShloMosaic.ValueIdx Idealize.ShloMosaic.StableHlo
open Idealize.ShloMosaic.Pipeline (Dat)

variable (m : (ℓ : Loc nD τ sig) → Buf (Elt Ideal) ℓ) (ρ : Dev nD → PrngReg)

/-- The first weight as the first region finds it is the transposed launch weight. -/
theorem v1_eq (c : Dev nD) : @Eq (FVec Ideal S64x64 .bf16) (V1 m ρ c main_v1)
      (truncf (F := Ideal) .bf16 (transpose S64x64 [1, 0] (m ((c : Thread nD τ).loc main_arg2)) transposes_S64x64_S64x64_1_0) bitsLt_bf16_f32) := by
  dsimp only [V1, W1, hostOps0]; after_results

theorem v3_eq (c : Dev nD) : @Eq (FVec Ideal S64x64 .bf16) (V1 m ρ c main_v3)
      (truncf (F := Ideal) .bf16 (transpose S64x64 [1, 0] (m ((c : Thread nD τ).loc main_arg4)) transposes_S64x64_S64x64_1_0) bitsLt_bf16_f32) := by
  dsimp only [V1, W1, hostOps0]; after_results

theorem v5_eq (c : Dev nD) : @Eq (FVec Ideal S64x64 .bf16) (V1 m ρ c main_v5)
      (truncf (F := Ideal) .bf16 (transpose S64x64 [1, 0] (m ((c : Thread nD τ).loc main_arg6)) transposes_S64x64_S64x64_1_0) bitsLt_bf16_f32) := by
  dsimp only [V1, W1, hostOps0]; after_results

/-- A transposed matrix whose format was changed, with its coordinates exchanged, is the matrix. -/
theorem swap_transposed (W : FVec Ideal S64x64 .f32) :
    Cert.Attn.swap (truncf (F := Ideal) .bf16 (transpose S64x64 [1, 0] W transposes_S64x64_S64x64_1_0) bitsLt_bf16_f32) = W := by
  funext i
  obtain ⟨a, b, rfl⟩ : ∃ (a b : Fin 64), i = ix2 a b := ⟨i 0, i 1, eq_ix2 i⟩
  rw [Cert.Attn.swap_ix2]
  exact transpose_ix2_apply W transposes_S64x64_S64x64_1_0 b a

theorem wq_entry (c : Dev nD) : Cert.Attn.swap (V1 m ρ c main_v1) = m ((c : Thread nD τ).loc main_arg2) := by
  rw [v1_eq]; exact swap_transposed _
theorem wk_entry (c : Dev nD) : Cert.Attn.swap (V1 m ρ c main_v3) = m ((c : Thread nD τ).loc main_arg4) := by
  rw [v3_eq]; exact swap_transposed _
theorem wv_entry (c : Dev nD) : Cert.Attn.swap (V1 m ρ c main_v5) = m ((c : Thread nD τ).loc main_arg6) := by
  rw [v5_eq]; exact swap_transposed _

/-- The arguments the first region reads, as it finds them. -/
theorem x_entry (c : Dev nD) : V1 m ρ c main_arg0 = m ((c : Thread nD τ).loc main_arg0) := by
  dsimp only [V1, W1, hostOps0]; after_results
theorem y_entry (c : Dev nD) : V1 m ρ c main_arg1 = m ((c : Thread nD τ).loc main_arg1) := by
  dsimp only [V1, W1, hostOps0]; after_results
theorem bq_entry (c : Dev nD) : V1 m ρ c main_arg3 = m ((c : Thread nD τ).loc main_arg3) := by
  dsimp only [V1, W1, hostOps0]; after_results
theorem bk_entry (c : Dev nD) : V1 m ρ c main_arg5 = m ((c : Thread nD τ).loc main_arg5) := by
  dsimp only [V1, W1, hostOps0]; after_results
theorem bv_entry (c : Dev nD) : V1 m ρ c main_arg7 = m ((c : Thread nD τ).loc main_arg7) := by
  dsimp only [V1, W1, hostOps0]; after_results

/-- What the second region finds: the sequences (input arrays of the first region too) … -/
theorem x_entry2 (c : Dev nD) : V2 m ρ c main_arg0 = m ((c : Thread nD τ).loc main_arg0) :=
  ((W2_arr m ρ c 0).trans (((dat0 (V1 m ρ) c).arrAt_in 0 rfl _).trans (A_eq0 (V1 m ρ) c 0))).trans (x_entry m ρ c)
theorem y_entry2 (c : Dev nD) : V2 m ρ c main_arg1 = m ((c : Thread nD τ).loc main_arg1) :=
  ((W2_arr m ρ c 1).trans (((dat0 (V1 m ρ) c).arrAt_in 1 rfl _).trans (A_eq0 (V1 m ρ) c 1))).trans (y_entry m ρ c)
/-- … and the third weight and bias, which the first region does not touch. -/
theorem wv_entry2 (c : Dev nD) : Cert.Attn.swap (V2 m ρ c main_v5) = m ((c : Thread nD τ).loc main_arg6) := by
  have e : V2 m ρ c main_v5 = V1 m ρ c main_v5 := W2_of_ne m ρ c main_v5 (by decide)
  rw [e]; exact wv_entry m ρ c
theorem bv_entry2 (c : Dev nD) : V2 m ρ c main_arg7 = m ((c : Thread nD τ).loc main_arg7) := by
  have e : V2 m ρ c main_arg7 = V1 m ρ c main_arg7 := W2_of_ne m ρ c main_arg7 (by decide)
  rw [e]; exact bv_entry m ρ c

end Cert.KernelIdeal.Entry

end
-- ==== Proof.ScoreBlocks.lean ====
/-
  The first region's output array is the score array.

  The region walks sixteen time blocks of 256 rows. At block t it reads rows 256 t … 256 t + 255 of the two sequences
  (all 64 streams, all 64 features), the two whole weight matrices as the host left them (coordinates exchanged) and
  the two whole bias rows, and writes back rows 256 t … 256 t + 255 of a [4096, 64] array. Row p of block t is row
  256 t + p of the array, so what block t writes back is the score array read through block t, and the sixteen blocks
  cover the array: row r lies in block r / 256.
-/
import proofs.«118970_j52578989638287_2_alg».proof.Proof.Gen.KernelIdeal.Frame
import proofs.«118970_j52578989638287_2_alg».proof.Proof.Spec
import Idealize.ShloMosaic.Lib.Pipeline.Value
import Idealize.ShloMosaic.Lib.ValueIdx

set_option maxRecDepth 16384

noncomputable section

open scoped BigOperators

namespace Cert.KernelIdeal.ScoreRegion

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz1 : (![0] : Fin 1 → Nat) = fun _ => 0 := funext fun a => by fin_cases a; rfl
theorem hz2 : (![0, 0] : Fin 2 → Nat) = fun _ => 0 := funext fun a => by fin_cases a <;> rfl
theorem hz3 : (![0, 0, 0] : Fin 3 → Nat) = fun _ => 0 := funext fun a => by fin_cases a <;> rfl

/-- The block index of every window at point t: the two sequences and the output move with t along time, the weights
    and biases stay at the origin. -/
theorem idx_facts : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 2) = 0 ∧ win0_2.index t (1 : Fin 2) = 0
    ∧ win0_3.index t (0 : Fin 1) = 0
    ∧ win0_4.index t (0 : Fin 2) = 0 ∧ win0_4.index t (1 : Fin 2) = 0
    ∧ win0_5.index t (0 : Fin 1) = 0
    ∧ win0_6.index t (0 : Fin 2) = t.val ∧ win0_6.index t (1 : Fin 2) = 0 :=
  (by decide +kernel : ∀ t : Fin grid0.N, _)

/-- Row p of time block t, as a row of the whole array. -/
def row (t : Fin cfg0.N) (p : Fin 256) : Fin 4096 :=
  ⟨t.val * 256 + p.val, by have h := t.isLt; have hN : cfg0.N = 16 := N_0; have hp := p.isLt; show _ < 4096; omega⟩

/-- The first sequence's block at t, at (p, q, d), is the sequence at (256 t + p, q, d). -/
theorem blk_x (c : Dev nD) (t : Fin cfg0.N) (p : Fin 256) (q d : Fin 64) :
    iblk0 V c 0 t (ix3 p q d) = V c main_arg0 (ix3 (row t p) q d) := by
  show V c main_arg0 (((cfg0.win 0).blk t).view.emb (ix3 p q d)) = V c main_arg0 (ix3 (row t p) q d)
  refine congrArg (V c main_arg0) ?_
  obtain ⟨e0, e1, e2, -⟩ := idx_facts t
  funext a; apply Fin.ext
  match a with
  | ⟨0, _⟩ => show win0_0.index t (0 : Fin 3) * 256 + 1 * p.val = t.val * 256 + p.val; omega
  | ⟨1, _⟩ => show win0_0.index t (1 : Fin 3) * 64 + 1 * q.val = q.val; omega
  | ⟨2, _⟩ => show win0_0.index t (2 : Fin 3) * 64 + 1 * d.val = d.val; omega

/-- The second sequence's block likewise. -/
theorem blk_y (c : Dev nD) (t : Fin cfg0.N) (p : Fin 256) (q d : Fin 64) :
    iblk0 V c 1 t (ix3 p q d) = V c main_arg1 (ix3 (row t p) q d) := by
  show V c main_arg1 (((cfg0.win 1).blk t).view.emb (ix3 p q d)) = V c main_arg1 (ix3 (row t p) q d)
  refine congrArg (V c main_arg1) ?_
  obtain ⟨-, -, -, e0, e1, e2, -⟩ := idx_facts t
  funext a; apply Fin.ext
  match a with
  | ⟨0, _⟩ => show win0_1.index t (0 : Fin 3) * 256 + 1 * p.val = t.val * 256 + p.val; omega
  | ⟨1, _⟩ => show win0_1.index t (1 : Fin 3) * 64 + 1 * q.val = q.val; omega
  | ⟨2, _⟩ => show win0_1.index t (2 : Fin 3) * 64 + 1 * d.val = d.val; omega

/-- The first weight's block is the whole matrix. -/
theorem blk_wq (c : Dev nD) (t : Fin cfg0.N) (a b : Fin 64) :
    iblk0 V c 2 t (ix2 a b) = V c main_v1 (ix2 a b) := by
  show V c main_v1 (((cfg0.win 2).blk t).view.emb (ix2 a b)) = V c main_v1 (ix2 a b)
  refine congrArg (V c main_v1) ?_
  obtain ⟨-, -, -, -, -, -, e0, e1, -⟩ := idx_facts t
  funext x; apply Fin.ext
  match x with
  | ⟨0, _⟩ => show win0_2.index t (0 : Fin 2) * 64 + 1 * a.val = a.val; omega
  | ⟨1, _⟩ => show win0_2.index t (1 : Fin 2) * 64 + 1 * b.val = b.val; omega

/-- The first bias's block is the whole row. -/
theorem blk_bq (c : Dev nD) (t : Fin cfg0.N) (a : Fin 64) :
    iblk0 V c 3 t (ix1 a) = V c main_arg3 (ix1 a) := by
  show V c main_arg3 (((cfg0.win 3).blk t).view.emb (ix1 a)) = V c main_arg3 (ix1 a)
  refine congrArg (V c main_arg3) ?_
  obtain ⟨-, -, -, -, -, -, -, -, e0, -⟩ := idx_facts t
  funext x; apply Fin.ext
  match x with
  | ⟨0, _⟩ => show win0_3.index t (0 : Fin 1) * 64 + 1 * a.val = a.val; omega

/-- The second weight's block is the whole matrix. -/
theorem blk_wk (c : Dev nD) (t : Fin cfg0.N) (a b : Fin 64) :
    iblk0 V c 4 t (ix2 a b) = V c main_v3 (ix2 a b) := by
  show V c main_v3 (((cfg0.win 4).blk t).view.emb (ix2 a b)) = V c main_v3 (ix2 a b)
  refine congrArg (V c main_v3) ?_
  obtain ⟨-, -, -, -, -, -, -, -, -, e0, e1, -⟩ := idx_facts t
  funext x; apply Fin.ext
  match x with
  | ⟨0, _⟩ => show win0_4.index t (0 : Fin 2) * 64 + 1 * a.val = a.val; omega
  | ⟨1, _⟩ => show win0_4.index t (1 : Fin 2) * 64 + 1 * b.val = b.val; omega

/-- The second bias's block is the whole row. -/
theorem blk_bk (c : Dev nD) (t : Fin cfg0.N) (a : Fin 64) :
    iblk0 V c 5 t (ix1 a) = V c main_arg5 (ix1 a) := by
  show V c main_arg5 (((cfg0.win 5).blk t).view.emb (ix1 a)) = V c main_arg5 (ix1 a)
  refine congrArg (V c main_arg5) ?_
  obtain ⟨-, -, -, -, -, -, -, -, -, -, -, e0, -⟩ := idx_facts t
  funext x; apply Fin.ext
  match x with
  | ⟨0, _⟩ => show win0_5.index t (0 : Fin 1) * 64 + 1 * a.val = a.val; omega

/-- Entry (p, q) of the output's block at t is entry (256 t + p, q) of the array. -/
theorem emb_out (t : Fin cfg0.N) (p : Fin 256) (q : Fin 64) :
    ((cfg0.win 6).blk t).view.emb (ix2 p q) = ix2 (row t p) q := by
  obtain ⟨-, -, -, -, -, -, -, -, -, -, -, -, e0, e1⟩ := idx_facts t
  funext x; apply Fin.ext
  match x with
  | ⟨0, _⟩ => show win0_6.index t (0 : Fin 2) * 256 + 1 * p.val = t.val * 256 + p.val; omega
  | ⟨1, _⟩ => show win0_6.index t (1 : Fin 2) * 64 + 1 * q.val = q.val; omega

end Cert.KernelIdeal.ScoreRegion

end
-- ==== Proof.LibColReduce.lean ====
/-
  Reductions down the rows of a matrix, read at one column on the extended reals. For an [R, C] matrix reduced along
  its first axis, the sum at column n is the sum over the rows of the entries of that column, and the maximum at
  column n is the fold of max, from the starting word's value, over the rows of the entries of that column. Both hold
  at any extents R and C; the indices are written by coordinates so that a caller meets no hidden index arithmetic.
-/
import Idealize.ShloMosaic.PureOps.Ideal.Laws
import Idealize.ShloMosaic.Lib.ValueIdx

noncomputable section

open scoped BigOperators

namespace Cert.Lib

open Idealize.ShloMosaic Idealize.ShloMosaic.ValueIdx

/-- A sum down the rows of an [R, C] matrix, at column n, is the sum over the rows of the entries of that column. -/
theorem colAdd_apply {R C : Nat} (src : FVec Ideal ⟨2, ![R, C]⟩ .f32)
    (h : Shape.Reduces (⟨2, ![R, C]⟩ : Shape) [0] ⟨1, ![C]⟩) (hφ : FKind.Formats .f32)
    (hacc : (0x00000000#32 : BitVec 32) = FKind.add.neutral .f32 hφ) (n : Fin C) :
    multiReduction .add [0] ⟨1, ![C]⟩ src 0x00000000#32 h hφ hacc (ix1 n) = ∑ a : Fin R, src (ix2 a n) :=
  (Ideal.multiReduction_add_single src _ h hφ hacc (ix1 n)).trans
    (Finset.sum_congr rfl fun a _ => congrArg src (funext fun d => Fin.ext (by
      match d with
      | ⟨0, _⟩ => rfl
      | ⟨1, _⟩ => rfl)))

/-- A maximum down the rows of an [R, C] matrix, at column n, is the fold of max, from the starting word's value, over
    the rows of the entries of that column. -/
theorem colMax_apply {R C : Nat} (src : FVec Ideal ⟨2, ![R, C]⟩ .f32) (acc : BitVec 32)
    (h : Shape.Reduces (⟨2, ![R, C]⟩ : Shape) [0] ⟨1, ![C]⟩) (hφ : FKind.Formats .f32)
    (hacc : acc = FKind.maximumf.neutral .f32 hφ) (n : Fin C) :
    multiReduction .maximumf [0] ⟨1, ![C]⟩ src acc h hφ hacc (ix1 n)
      = (Finset.univ : Finset (Fin R)).fold max (Ideal.ofBits .f32 acc) (fun a => src (ix2 a n)) :=
  (Ideal.multiReduction_maximumf_single src acc h hφ hacc (ix1 n)).trans
    (congrArg (fun f => Finset.fold max (Ideal.ofBits .f32 acc) f (Finset.univ : Finset (Fin R)))
      (funext fun a => congrArg src (funext fun d => Fin.ext (by
        match d with
        | ⟨0, _⟩ => rfl
        | ⟨1, _⟩ => rfl))))

end Cert.Lib

end
-- ==== Proof.Payload0.lean ====
/-
  The score kernel's stored value, read at one index on the extended reals.

  The kernel views each of its two [256, 64, 64] blocks as a [16384, 64] matrix (row p·64 + q is the block's (p, q)
  row), multiplies it into a zero accumulator against a [64, 64] weight (contracting the block's last axis with the
  weight's first), adds a bias row, views the [16384, 64] result as [256, 64, 64] again, multiplies the two results
  elementwise, sums over the last axis and scales by the word 0x3E000000. The format change before the product is the
  identity on extended reals. Read at (p, q) this is
    (∑ o, ((∑ d, x0 (p, q, d) · w3 (d, o)) + b4 o) · ((∑ d, x1 (p, q, d) · w5 (d, o)) + b6 o)) · (the word's value):
  the two reshapes cancel because (p, q, o) and (p·64 + q, o) have the same row-major position, and the product's sum
  over its one contraction coordinate is re-indexed by that coordinate.
-/
import proofs.«118970_j52578989638287_2_alg».proof.Proof.Gen.KernelIdeal.Skeleton
import proofs.«118970_j52578989638287_2_alg».proof.Proof.Spec
import proofs.«118970_j52578989638287_2_alg».proof.Proof.LibColReduce
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Pay

open Cert.KernelIdeal Cert.KernelIdeal.Gen Idealize.ShloMosaic Idealize.ShloMosaic.ValueIdx Idealize.SL.Sem

/-- Row p·64 + q of the flattened block. -/
def row0 (p : Fin 256) (q : Fin 64) : Fin 16384 := ⟨p.val * 64 + q.val, by have := p.isLt; have := q.isLt; omega⟩

/-! ## The product's operand indices -/

theorem dot0_lhs_0 (i : S16384x64.Idx) (k : dot_S16384x64_S64x64_S16384x64_1_0_0_1_n_n.contr.Idx) :
    (dot_S16384x64_S64x64_S16384x64_1_0_0_1_n_n.lhsIdx i k 0).val = (i 0).val := by
  unfold DotDims.lhsIdx
  rw [dif_neg (show ¬(0 : Fin S16384x64.rank) ∈ dot_S16384x64_S64x64_S16384x64_1_0_0_1_n_n.lhsBatch by decide), dif_pos (show (0 : Fin S16384x64.rank) ∈ dot_S16384x64_S64x64_S16384x64_1_0_0_1_n_n.lhsNonContracting by decide)]
  rfl
theorem dot0_lhs_1 (i : S16384x64.Idx) (k : dot_S16384x64_S64x64_S16384x64_1_0_0_1_n_n.contr.Idx) :
    (dot_S16384x64_S64x64_S16384x64_1_0_0_1_n_n.lhsIdx i k 1).val = (k ⟨0, by decide⟩).val :=
  dot_S16384x64_S64x64_S16384x64_1_0_0_1_n_n.lhsIdx_val_of_single rfl i k
theorem dot0_rhs_0 (i : S16384x64.Idx) (k : dot_S16384x64_S64x64_S16384x64_1_0_0_1_n_n.contr.Idx) :
    (dot_S16384x64_S64x64_S16384x64_1_0_0_1_n_n.rhsIdx i k 0).val = (k ⟨0, by decide⟩).val :=
  dot_S16384x64_S64x64_S16384x64_1_0_0_1_n_n.rhsIdx_val_of_single rfl i k
theorem dot0_rhs_1 (i : S16384x64.Idx) (k : dot_S16384x64_S64x64_S16384x64_1_0_0_1_n_n.contr.Idx) :
    (dot_S16384x64_S64x64_S16384x64_1_0_0_1_n_n.rhsIdx i k 1).val = (i 1).val := by
  unfold DotDims.rhsIdx
  rw [dif_neg (show ¬(1 : Fin S64x64.rank) ∈ dot_S16384x64_S64x64_S16384x64_1_0_0_1_n_n.rhsBatch by decide), dif_pos (show (1 : Fin S64x64.rank) ∈ dot_S16384x64_S64x64_S16384x64_1_0_0_1_n_n.rhsNonContracting by decide)]
  rfl

/-- The product into a zero accumulator at (r, o): the sum over d of the left operand at (r, d) times the right at
    (d, o). -/
theorem mm0_apply (lhs : FVec Ideal S16384x64 .bf16) (rhs : FVec Ideal S64x64 .bf16) (r : Fin 16384) (o : Fin 64) :
    matmul dot_S16384x64_S64x64_S16384x64_1_0_0_1_n_n none lhs rhs (constant (F := Ideal) S16384x64 .f32 0x00000000#32) (ix2 r o)
      = ∑ d : Fin 64, lhs (ix2 r d) * rhs (ix2 d o) := by
  refine (Ideal.matmul_constant_zero_apply dot_S16384x64_S64x64_S16384x64_1_0_0_1_n_n none lhs rhs (ix2 r o)).trans ?_
  rw [← Equiv.sum_comp (contrEquiv1 dot_S16384x64_S64x64_S16384x64_1_0_0_1_n_n 64 rfl rfl).symm]
  refine Finset.sum_congr rfl fun k _ => ?_
  have hk := contrEquiv1_symm_val dot_S16384x64_S64x64_S16384x64_1_0_0_1_n_n 64 rfl rfl k
  have el : dot_S16384x64_S64x64_S16384x64_1_0_0_1_n_n.lhsIdx (ix2 r o) ((contrEquiv1 dot_S16384x64_S64x64_S16384x64_1_0_0_1_n_n 64 rfl rfl).symm k) = ix2 r k := funext fun a => Fin.ext (by
    match a with
    | ⟨0, _⟩ => exact dot0_lhs_0 _ _
    | ⟨1, _⟩ => exact (dot0_lhs_1 _ _).trans hk)
  have er : dot_S16384x64_S64x64_S16384x64_1_0_0_1_n_n.rhsIdx (ix2 r o) ((contrEquiv1 dot_S16384x64_S64x64_S16384x64_1_0_0_1_n_n 64 rfl rfl).symm k) = ix2 k o := funext fun a => Fin.ext (by
    match a with
    | ⟨0, _⟩ => exact (dot0_rhs_0 _ _).trans hk
    | ⟨1, _⟩ => exact dot0_rhs_1 _ _)
  rw [el, er]

/-! ## The two reshapes and the bias row -/

/-- The [256, 64, 64] block viewed [16384, 64] reads, at (p·64 + q, d), the block at (p, q, d). -/
theorem flat0_apply {α : Type} (x : S256x64x64.Idx → α) (p : Fin 256) (q d : Fin 64) :
    shapeCast S16384x64 x shapeCasts_S256x64x64_S16384x64 (ix2 (row0 p q) d) = x (ix3 p q d) :=
  shapeCast_apply x shapeCasts_S256x64x64_S16384x64 _ _ (by
    rw [Shape.rowMajor_val_three, Shape.rowMajor_val_two]
    rfl)

/-- The [16384, 64] matrix viewed [256, 64, 64] reads, at (p, q, o), the matrix at (p·64 + q, o). -/
theorem unflat0_apply {α : Type} (y : S16384x64.Idx → α) (p : Fin 256) (q o : Fin 64) :
    shapeCast S256x64x64 y shapeCasts_S16384x64_S256x64x64 (ix3 p q o) = y (ix2 (row0 p q) o) :=
  shapeCast_apply y shapeCasts_S16384x64_S256x64x64 _ _ (by
    rw [Shape.rowMajor_val_three, Shape.rowMajor_val_two]
    rfl)

/-- The bias row broadcast over the 16384 rows reads, at (r, o), the bias at o. -/
theorem bias0_apply {α : Type} (b : S64.Idx → α) (r : Fin 16384) (o : Fin 64) :
    broadcastTo S16384x64 (shapeCast S1x64 b shapeCasts_S64_S1x64) broadcasts_S1x64_S16384x64 (ix2 r o) = b (ix1 o) :=
  (broadcastTo_1b_ab_apply _ broadcasts_S1x64_S16384x64 r o).trans (shapeCast_a_1a_apply b shapeCasts_S64_S1x64 0 o)

/-! ## The linear layer -/

/-- The kernel's linear layer of one block: flatten, change format, multiply, add the bias row, unflatten. -/
def lin0 (x : FVec Ideal S256x64x64 .f32) (w : FVec Ideal S64x64 .bf16) (b : FVec Ideal S64 .f32) : FVec Ideal S256x64x64 .f32 :=
  shapeCast S256x64x64
    (addf
      (matmul dot_S16384x64_S64x64_S16384x64_1_0_0_1_n_n none
        (truncf .bf16 (shapeCast S16384x64 x shapeCasts_S256x64x64_S16384x64) bitsLt_bf16_f32)
        (shapeCast S64x64 w shapeCasts_S64x64_S64x64) (constant S16384x64 .f32 0x00000000#32))
      (broadcastTo S16384x64 (shapeCast S1x64 b shapeCasts_S64_S1x64) broadcasts_S1x64_S16384x64))
    shapeCasts_S16384x64_S256x64x64

/-- The linear layer at (p, q, o): the row (p, q, ·) of the block against column o of the weight, plus the bias at o. -/
theorem lin0_apply (x : FVec Ideal S256x64x64 .f32) (w : FVec Ideal S64x64 .bf16) (b : FVec Ideal S64 .f32)
    (p : Fin 256) (q o : Fin 64) :
    lin0 x w b (ix3 p q o) = (∑ d : Fin 64, x (ix3 p q d) * w (ix2 d o)) + b (ix1 o) := by
  unfold lin0
  refine (unflat0_apply _ p q o).trans ?_
  refine (addf_apply _ _ _).trans ?_
  rw [bias0_apply, mm0_apply, shapeCast_self]
  refine congrArg (· + b (ix1 o)) (Finset.sum_congr rfl fun d _ => ?_)
  refine congrArg (· * w (ix2 d o)) ?_
  exact flat0_apply x p q d

/-! ## The stored value -/

/-- The stored value is the scaled last-axis sum of the product of the two linear layers. -/
theorem pay0_eq (x0 x1 : Vec Ideal S256x64x64 .f32) (w3 : Vec Ideal S64x64 .bf16) (b4 : Vec Ideal S64 .f32)
    (w5 : Vec Ideal S64x64 .bf16) (b6 : Vec Ideal S64 .f32) :
    k0_pay1 (F := Ideal) x0 x1 w3 b4 w5 b6
      = mulf (multiReduction (F := Ideal) .add [2] S256x64 (mulf (lin0 x0 w3 b4) (lin0 x1 w5 b6)) 0x00000000#32
          reduces_S256x64x64_S256x64 (.inl rfl) rfl) (broadcast S256x64 (Scalar.ofBits .f32 0x3E000000#32)) := rfl

/-- The score kernel's stored value at (p, q). -/
theorem pay0_apply (x0 x1 : Vec Ideal S256x64x64 .f32) (w3 : Vec Ideal S64x64 .bf16) (b4 : Vec Ideal S64 .f32)
    (w5 : Vec Ideal S64x64 .bf16) (b6 : Vec Ideal S64 .f32) (p : Fin 256) (q : Fin 64) :
    k0_pay1 (F := Ideal) x0 x1 w3 b4 w5 b6 (ix2 p q)
      = (∑ o : Fin 64, ((∑ d : Fin 64, x0 (ix3 p q d) * w3 (ix2 d o)) + b4 (ix1 o))
            * ((∑ d : Fin 64, x1 (ix3 p q d) * w5 (ix2 d o)) + b6 (ix1 o))) * Ideal.ofBits .f32 0x3E000000#32 := by
  rw [pay0_eq]
  refine (mulf_apply _ _ _).trans ?_
  refine congrArg (· * Ideal.ofBits .f32 0x3E000000#32) ?_
  refine (Ideal.multiReduction_add_single _ _ reduces_S256x64x64_S256x64 _ _ (ix2 p q)).trans ?_
  refine Finset.sum_congr rfl fun (o : Fin 64) _ => ?_
  have hl : reduces_S256x64x64_S256x64.lift (ix2 p q) o = ix3 p q o := funext fun a => Fin.ext (by
    match a with
    | ⟨0, _⟩ => rfl
    | ⟨1, _⟩ => rfl
    | ⟨2, _⟩ => rfl)
  rw [hl]
  refine (mulf_apply _ _ _).trans ?_
  rw [lin0_apply, lin0_apply]

end Cert.KernelIdeal.Pay

end
-- ==== Proof.ScoreArray.lean ====
/-
  The first region's output array after the run is the score array of what the region found.

  What time block t writes back is its body's stored value of the blocks it read. Entry (p, q) of that value is the
  score formula over row p of the two sequence blocks, which are rows 256 t + p of the sequences, against the weight
  matrices the region was handed (coordinates exchanged) and the bias rows: the score array at (256 t + p, q). Every
  row r of the array lies in time block r / 256, so the array ends as the score array.
-/
import proofs.«118970_j52578989638287_2_alg».proof.Proof.ScoreBlocks
import proofs.«118970_j52578989638287_2_alg».proof.Proof.Payload0

set_option maxRecDepth 16384

noncomputable section

open scoped BigOperators

namespace Cert.KernelIdeal.ScoreRegion

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- The score array of what the region finds. -/
abbrev found (c : Dev nD) : S4096x64.Idx → EReal :=
  Cert.Attn.score (V c main_arg0) (V c main_arg1) (Cert.Attn.swap (V c main_v1)) (V c main_arg3)
    (Cert.Attn.swap (V c main_v3)) (V c main_arg5)

/-- What time block t writes back is the score array read through block t. -/
theorem flushed_eq (c : Dev nD) (t : Fin cfg0.N) :
    (dat0 V c).flushed 6 t = ((cfg0.win 6).blk t).view.read (Elt Ideal) (found V c) := by
  show (cfg0.win 6).cut (grid0.coords t) ((dat0 V c).after 6 t) = _
  rw [after0_6]
  unfold out0_6
  rw [View.canon_unit_zero hz2]
  simp only [View.ld_unit_zero (S := S256x64x64) hz3, View.ld_unit_zero (S := S64x64) hz2, View.ld_unit_zero (S := S64) hz1]
  funext j
  obtain ⟨p, q, rfl⟩ : ∃ (p : Fin 256) (q : Fin 64), j = ix2 p q := ⟨j 0, j 1, eq_ix2 j⟩
  show k0_pay1 (F := Ideal) (iblk0 V c 0 t) (iblk0 V c 1 t) (iblk0 V c 2 t) (iblk0 V c 3 t) (iblk0 V c 4 t) (iblk0 V c 5 t) (ix2 p q)
    = found V c (((cfg0.win 6).blk t).view.emb (ix2 p q))
  rw [Cert.KernelIdeal.Pay.pay0_apply, emb_out]
  show _ = Cert.Attn.scoreAt (V c main_arg0) (V c main_arg1) (Cert.Attn.swap (V c main_v1)) (V c main_arg3)
    (Cert.Attn.swap (V c main_v3)) (V c main_arg5) (row t p) q
  unfold Cert.Attn.scoreAt Cert.Attn.lin
  simp only [blk_x, blk_y, blk_wq, blk_bq, blk_wk, blk_bk, Cert.Attn.swap_ix2]

/-- An index of the array is in block t iff its row is among the block's 256 rows. -/
theorem mem_blk (t : Fin cfg0.N) (i : S4096x64.Idx) :
    i ∈ ((cfg0.win 6).blk t).view.set ↔ ∀ a : Fin 2, win0_6.index t a * S256x64.size a ≤ (i a).val ∧ (i a).val < win0_6.index t a * S256x64.size a + S256x64.size a := by
  show i ∈ ((View.whole main_v6).slice (win0_6.rect t)).set ↔ _
  rw [View.set_slice_whole, Rect.mem_set_unit]
  exact Iff.rfl

/-- Every index of the array lies in some block that is written back. -/
theorem cover (i : S4096x64.Idx) :
    ∃ t : Fin cfg0.N, (cfg0.win 6).flush t = true ∧ i ∈ ((cfg0.win 6).blk t).view.set := by
  have hi0 : (i 0).val < 4096 := (i 0).isLt
  have hi1 : (i 1).val < 64 := (i 1).isLt
  have hN : cfg0.N = 16 := N_0
  let t : Fin cfg0.N := ⟨(i 0).val / 256, by omega⟩
  refine ⟨t, flush0_6 t, ?_⟩
  rw [mem_blk]
  obtain ⟨-, -, -, -, -, -, -, -, -, -, -, -, e0, e1⟩ := idx_facts t
  have ht : t.val = (i 0).val / 256 := rfl
  intro a
  match a with
  | ⟨0, _⟩ => show win0_6.index t (0 : Fin 2) * 256 ≤ (i 0).val ∧ (i 0).val < win0_6.index t (0 : Fin 2) * 256 + 256; omega
  | ⟨1, _⟩ => show win0_6.index t (1 : Fin 2) * 64 ≤ (i 1).val ∧ (i 1).val < win0_6.index t (1 : Fin 2) * 64 + 64; omega

/-- The array after the run. -/
theorem final (c : Dev nD) : (dat0 V c).arrAt 6 cfg0.N = found V c :=
  (dat0 V c).arrAt_eq_of_cover 6 (found V c) (fun t _ => flushed_eq V c t) (cover)

end Cert.KernelIdeal.ScoreRegion

end
-- ==== Proof.CombineBlocks.lean ====
/-
  The second region's blocks.

  The region walks thirty-two time blocks of 128 rows. At block t it reads rows 128 t … 128 t + 127 of the two
  sequences, the third weight matrix as the host left it and its bias row whole, and the whole [4096, 64] score array;
  inside the body it loads, besides the whole score array, the 128 rows of it that start at row 128 t. It writes back
  rows 128 t … 128 t + 127 of the result. The body's one covering store holds its arithmetic of those loads.
-/
import proofs.«118970_j52578989638287_2_alg».proof.Proof.Gen.KernelIdeal.Frame
import Idealize.ShloMosaic.Lib.Pipeline.Value
import Idealize.ShloMosaic.Lib.ValueIdx
import Idealize.ShloMosaic.Lib.Tactic

set_option maxRecDepth 16384

noncomputable section

namespace Cert.KernelIdeal.CombineRegion

open Cert.KernelIdeal Cert.KernelIdeal.Gen
open Idealize.ShloMosaic Idealize.ShloMosaic.TcCoe Idealize.SL.Sem Idealize.ShloMosaic.ValueIdx Idealize.ShloMosaic.Tactic
open Idealize.ShloMosaic.Pipeline (Dat)

theorem hz1 : (![0] : Fin 1 → Nat) = fun _ => 0 := funext fun a => by fin_cases a; rfl
theorem hz2 : (![0, 0] : Fin 2 → Nat) = fun _ => 0 := funext fun a => by fin_cases a <;> rfl
theorem hz3 : (![0, 0, 0] : Fin 3 → Nat) = fun _ => 0 := funext fun a => by fin_cases a <;> rfl

section Piece

variable {F : FTy → Type} [FloatOps F]

/-- What the body leaves in the output's staging buffer: its arithmetic of the five whole blocks it loads and of the
    rows of the score array that start at the body's computed offset. -/
theorem out_piece (c : Dev nD) (i : grid1.Coords) (a1 : Memref sig .tc .vmem S128x64x64 .f32) (h1 : a1.IsWhole) (a2 : Memref sig .tc .vmem S128x64x64 .f32) (h2 : a2.IsWhole) (a3 : Memref sig .tc .vmem S64x64 .bf16) (h3 : a3.IsWhole) (a4 : Memref sig .tc .vmem S64 .f32) (h4 : a4.IsWhole) (a5 : Memref sig .tc .vmem S4096x64 .f32) (h5 : a5.IsWhole) (a6 : Memref sig .tc .vmem S128x64x64 .f32) (h6 : a6.IsWhole)
    (x0 x1 : Vec F S128x64x64 .f32) (x2 : Vec F S64x64 .bf16) (x3 : Vec F S64 .f32) (x4 : Vec F S4096x64 .f32) :
    out1_A_5 c i a1 h1 a2 h2 a3 h3 a4 h4 a5 h5 a6 h6 x0 x1 x2 x3 x4
      = k1_pay1 x0 x1 x2 x3 x4 (View.ld x4 (Rect.unit (s := S4096x64) (k1_off1 i) S128x64.size (k1_off1_inb i))) := by
  unfold out1_A_5
  rw [View.read_writes_eq_canon _ _ _ (cover1_A_5 c i a1 h1 a2 h2 a3 h3 a4 h4 a5 h5 a6 h6 x0 x1 x2 x3 x4)]
  unfold kernelRun1_A
  dsimp only
  rw [View.canon_unit_zero hz3]
  simp only [View.readAt_eq_ld, h1.read_unread, h2.read_unread, h3.read_unread, h4.read_unread, h5.read_unread,
    View.ld_unit_zero (S := S128x64x64) hz3, View.ld_unit_zero (S := S64x64) hz2, View.ld_unit_zero (S := S64) hz1,
    View.ld_unit_zero (S := S4096x64) hz2]

end Piece

variable (V : (c : Dev nD) → (b : Ref sig .tc) → Buf (Elt Ideal) ((c : Thread nD τ).loc b))

/-- The block index of every window at point t, and the offset the body computes there: the sequences and the output
    move with t along time, the weight, the bias and the score array stay at the origin, the offset is row 128 t. -/
theorem idx_facts : ∀ t : Fin cfg1.N,
    win1_0.index t (0 : Fin 3) = t.val ∧ win1_0.index t (1 : Fin 3) = 0 ∧ win1_0.index t (2 : Fin 3) = 0
    ∧ win1_1.index t (0 : Fin 3) = t.val ∧ win1_1.index t (1 : Fin 3) = 0 ∧ win1_1.index t (2 : Fin 3) = 0
    ∧ win1_2.index t (0 : Fin 2) = 0 ∧ win1_2.index t (1 : Fin 2) = 0
    ∧ win1_3.index t (0 : Fin 1) = 0
    ∧ win1_4.index t (0 : Fin 2) = 0 ∧ win1_4.index t (1 : Fin 2) = 0
    ∧ win1_5.index t (0 : Fin 3) = t.val ∧ win1_5.index t (1 : Fin 3) = 0 ∧ win1_5.index t (2 : Fin 3) = 0
    ∧ k1_off1 (grid1.coords t) (0 : Fin 2) = t.val * 128 ∧ k1_off1 (grid1.coords t) (1 : Fin 2) = 0 :=
  (by decide +kernel : ∀ t : Fin grid1.N, _)

/-- Row p of time block t, as a row of the whole array. -/
def row (t : Fin cfg1.N) (p : Fin 128) : Fin 4096 :=
  ⟨t.val * 128 + p.val, by have h := t.isLt; have hN : cfg1.N = 32 := N_1; have hp := p.isLt; show _ < 4096; omega⟩

/-- The first sequence's block at t, at (p, q, d), is the sequence at (128 t + p, q, d). -/
theorem blk_x (c : Dev nD) (t : Fin cfg1.N) (p : Fin 128) (q d : Fin 64) :
    iblk1 V c 0 t (ix3 p q d) = V c main_arg0 (ix3 (row t p) q d) := by
  show V c main_arg0 (((cfg1.win 0).blk t).view.emb (ix3 p q d)) = V c main_arg0 (ix3 (row t p) q d)
  refine congrArg (V c main_arg0) ?_
  obtain ⟨e0, e1, e2, -⟩ := idx_facts t
  funext a; apply Fin.ext
  match a with
  | ⟨0, _⟩ => show win1_0.index t (0 : Fin 3) * 128 + 1 * p.val = t.val * 128 + p.val; omega
  | ⟨1, _⟩ => show win1_0.index t (1 : Fin 3) * 64 + 1 * q.val = q.val; omega
  | ⟨2, _⟩ => show win1_0.index t (2 : Fin 3) * 64 + 1 * d.val = d.val; omega

/-- The second sequence's block likewise. -/
theorem blk_y (c : Dev nD) (t : Fin cfg1.N) (p : Fin 128) (q d : Fin 64) :
    iblk1 V c 1 t (ix3 p q d) = V c main_arg1 (ix3 (row t p) q d) := by
  show V c main_arg1 (((cfg1.win 1).blk t).view.emb (ix3 p q d)) = V c main_arg1 (ix3 (row t p) q d)
  refine congrArg (V c main_arg1) ?_
  obtain ⟨-, -, -, e0, e1, e2, -⟩ := idx_facts t
  funext a; apply Fin.ext
  match a with
  | ⟨0, _⟩ => show win1_1.index t (0 : Fin 3) * 128 + 1 * p.val = t.val * 128 + p.val; omega
  | ⟨1, _⟩ => show win1_1.index t (1 : Fin 3) * 64 + 1 * q.val = q.val; omega
  | ⟨2, _⟩ => show win1_1.index t (2 : Fin 3) * 64 + 1 * d.val = d.val; omega

/-- The weight's block is the whole matrix. -/
theorem blk_wv (c : Dev nD) (t : Fin cfg1.N) (a b : Fin 64) :
    iblk1 V c 2 t (ix2 a b) = V c main_v5 (ix2 a b) := by
  show V c main_v5 (((cfg1.win 2).blk t).view.emb (ix2 a b)) = V c main_v5 (ix2 a b)
  refine congrArg (V c main_v5) ?_
  obtain ⟨-, -, -, -, -, -, e0, e1, -⟩ := idx_facts t
  funext x; apply Fin.ext
  match x with
  | ⟨0, _⟩ => show win1_2.index t (0 : Fin 2) * 64 + 1 * a.val = a.val; omega
  | ⟨1, _⟩ => show win1_2.index t (1 : Fin 2) * 64 + 1 * b.val = b.val; omega

/-- The bias's block is the whole row. -/
theorem blk_bv (c : Dev nD) (t : Fin cfg1.N) (a : Fin 64) :
    iblk1 V c 3 t (ix1 a) = V c main_arg7 (ix1 a) := by
  show V c main_arg7 (((cfg1.win 3).blk t).view.emb (ix1 a)) = V c main_arg7 (ix1 a)
  refine congrArg (V c main_arg7) ?_
  obtain ⟨-, -, -, -, -, -, -, -, e0, -⟩ := idx_facts t
  funext x; apply Fin.ext
  match x with
  | ⟨0, _⟩ => show win1_3.index t (0 : Fin 1) * 64 + 1 * a.val = a.val; omega

/-- The score window's block is the whole score array, at every point. -/
theorem blk_sc (c : Dev nD) (t : Fin cfg1.N) : (iblk1 V c 4 t : S4096x64.Idx → EReal) = V c main_v6 := by
  funext j
  show V c main_v6 (((cfg1.win 4).blk t).view.emb j) = V c main_v6 j
  refine congrArg (V c main_v6) ?_
  obtain ⟨-, -, -, -, -, -, -, -, -, e0, e1, -⟩ := idx_facts t
  funext x; apply Fin.ext
  match x with
  | ⟨0, _⟩ => show win1_4.index t (0 : Fin 2) * 4096 + 1 * (j 0).val = (j 0).val; omega
  | ⟨1, _⟩ => show win1_4.index t (1 : Fin 2) * 64 + 1 * (j 1).val = (j 1).val; omega

/-- The rows of a score array the body loads at point t: entry (p, q) is the array at (128 t + p, q). -/
theorem tile_apply (sc : Vec Ideal S4096x64 .f32) (t : Fin cfg1.N) (p : Fin 128) (q : Fin 64) :
    View.ld sc (Rect.unit (s := S4096x64) (k1_off1 (grid1.coords t)) S128x64.size (k1_off1_inb (grid1.coords t))) (ix2 p q)
      = sc (ix2 (row t p) q) := by
  show sc ((Rect.unit (s := S4096x64) (k1_off1 (grid1.coords t)) S128x64.size (k1_off1_inb (grid1.coords t))).idx (ix2 p q)) = sc (ix2 (row t p) q)
  refine congrArg sc ?_
  obtain ⟨-, -, -, -, -, -, -, -, -, -, -, -, -, -, e0, e1⟩ := idx_facts t
  funext x; apply Fin.ext
  match x with
  | ⟨0, _⟩ => show k1_off1 (grid1.coords t) (0 : Fin 2) + 1 * p.val = t.val * 128 + p.val; omega
  | ⟨1, _⟩ => show k1_off1 (grid1.coords t) (1 : Fin 2) + 1 * q.val = q.val; omega

/-- Entry (p, q, d) of the output's block at t is entry (128 t + p, q, d) of the array. -/
theorem emb_out (t : Fin cfg1.N) (p : Fin 128) (q d : Fin 64) :
    ((cfg1.win 5).blk t).view.emb (ix3 p q d) = ix3 (row t p) q d := by
  obtain ⟨-, -, -, -, -, -, -, -, -, -, -, e0, e1, e2, -⟩ := idx_facts t
  funext x; apply Fin.ext
  match x with
  | ⟨0, _⟩ => show win1_5.index t (0 : Fin 3) * 128 + 1 * p.val = t.val * 128 + p.val; omega
  | ⟨1, _⟩ => show win1_5.index t (1 : Fin 3) * 64 + 1 * q.val = q.val; omega
  | ⟨2, _⟩ => show win1_5.index t (2 : Fin 3) * 64 + 1 * d.val = d.val; omega

end Cert.KernelIdeal.CombineRegion

end
-- ==== Proof.Payload1.lean ====
/-
  The combine kernel's stored value, read at one index on the extended reals.

  The kernel passes its second [128, 64, 64] block through a linear layer: the block viewed as a [8192, 64] matrix (row
  p·64 + q is the block's (p, q) row), multiplied into a zero accumulator against a [64, 64] weight (contracting the
  block's last axis with the weight's first), plus a bias row, viewed [128, 64, 64] again; the format change before the
  product is the identity on extended reals. Of the whole [4096, 64] score array it takes, down each column, the
  maximum (folded from the word 0xFF800000) and the sum of exp (score − maximum). For its own [128, 64] score tile it
  forms exp (tile − maximum) / sum, repeats that along a new last axis, multiplies by the linear layer and adds the
  first block. Read at (p, q, d) this is
    x0 (p, q, d) + exp (tile (p, q) − colMax q) / colDen q · ((∑ d', x1 (p, q, d') · w (d', d)) + b d).
-/
import proofs.«118970_j52578989638287_2_alg».proof.Proof.Gen.KernelIdeal.Skeleton
import proofs.«118970_j52578989638287_2_alg».proof.Proof.Spec
import proofs.«118970_j52578989638287_2_alg».proof.Proof.LibColReduce
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Pay

open Cert.KernelIdeal Cert.KernelIdeal.Gen Idealize.ShloMosaic Idealize.ShloMosaic.ValueIdx Idealize.SL.Sem

/-- Row p·64 + q of the flattened block. -/
def row1 (p : Fin 128) (q : Fin 64) : Fin 8192 := ⟨p.val * 64 + q.val, by have := p.isLt; have := q.isLt; omega⟩

/-- The exponential of a vector at an index is the exponential of the element. -/
theorem exp_apply {s : Shape} {φ : FTy} (a : FVec Ideal s φ) (i : s.Idx) : exp a i = Ideal.exp (a i) := rfl

/-! ## The product's operand indices -/

theorem dot1_lhs_0 (i : S8192x64.Idx) (k : dot_S8192x64_S64x64_S8192x64_1_0_0_1_n_n.contr.Idx) :
    (dot_S8192x64_S64x64_S8192x64_1_0_0_1_n_n.lhsIdx i k 0).val = (i 0).val := by
  unfold DotDims.lhsIdx
  rw [dif_neg (show ¬(0 : Fin S8192x64.rank) ∈ dot_S8192x64_S64x64_S8192x64_1_0_0_1_n_n.lhsBatch by decide), dif_pos (show (0 : Fin S8192x64.rank) ∈ dot_S8192x64_S64x64_S8192x64_1_0_0_1_n_n.lhsNonContracting by decide)]
  rfl
theorem dot1_lhs_1 (i : S8192x64.Idx) (k : dot_S8192x64_S64x64_S8192x64_1_0_0_1_n_n.contr.Idx) :
    (dot_S8192x64_S64x64_S8192x64_1_0_0_1_n_n.lhsIdx i k 1).val = (k ⟨0, by decide⟩).val :=
  dot_S8192x64_S64x64_S8192x64_1_0_0_1_n_n.lhsIdx_val_of_single rfl i k
theorem dot1_rhs_0 (i : S8192x64.Idx) (k : dot_S8192x64_S64x64_S8192x64_1_0_0_1_n_n.contr.Idx) :
    (dot_S8192x64_S64x64_S8192x64_1_0_0_1_n_n.rhsIdx i k 0).val = (k ⟨0, by decide⟩).val :=
  dot_S8192x64_S64x64_S8192x64_1_0_0_1_n_n.rhsIdx_val_of_single rfl i k
theorem dot1_rhs_1 (i : S8192x64.Idx) (k : dot_S8192x64_S64x64_S8192x64_1_0_0_1_n_n.contr.Idx) :
    (dot_S8192x64_S64x64_S8192x64_1_0_0_1_n_n.rhsIdx i k 1).val = (i 1).val := by
  unfold DotDims.rhsIdx
  rw [dif_neg (show ¬(1 : Fin S64x64.rank) ∈ dot_S8192x64_S64x64_S8192x64_1_0_0_1_n_n.rhsBatch by decide), dif_pos (show (1 : Fin S64x64.rank) ∈ dot_S8192x64_S64x64_S8192x64_1_0_0_1_n_n.rhsNonContracting by decide)]
  rfl

/-- The product into a zero accumulator at (r, o): the sum over d of the left operand at (r, d) times the right at
    (d, o). -/
theorem mm1_apply (lhs : FVec Ideal S8192x64 .bf16) (rhs : FVec Ideal S64x64 .bf16) (r : Fin 8192) (o : Fin 64) :
    matmul dot_S8192x64_S64x64_S8192x64_1_0_0_1_n_n none lhs rhs (constant (F := Ideal) S8192x64 .f32 0x00000000#32) (ix2 r o)
      = ∑ d : Fin 64, lhs (ix2 r d) * rhs (ix2 d o) := by
  refine (Ideal.matmul_constant_zero_apply dot_S8192x64_S64x64_S8192x64_1_0_0_1_n_n none lhs rhs (ix2 r o)).trans ?_
  rw [← Equiv.sum_comp (contrEquiv1 dot_S8192x64_S64x64_S8192x64_1_0_0_1_n_n 64 rfl rfl).symm]
  refine Finset.sum_congr rfl fun k _ => ?_
  have hk := contrEquiv1_symm_val dot_S8192x64_S64x64_S8192x64_1_0_0_1_n_n 64 rfl rfl k
  have el : dot_S8192x64_S64x64_S8192x64_1_0_0_1_n_n.lhsIdx (ix2 r o) ((contrEquiv1 dot_S8192x64_S64x64_S8192x64_1_0_0_1_n_n 64 rfl rfl).symm k) = ix2 r k := funext fun a => Fin.ext (by
    match a with
    | ⟨0, _⟩ => exact dot1_lhs_0 _ _
    | ⟨1, _⟩ => exact (dot1_lhs_1 _ _).trans hk)
  have er : dot_S8192x64_S64x64_S8192x64_1_0_0_1_n_n.rhsIdx (ix2 r o) ((contrEquiv1 dot_S8192x64_S64x64_S8192x64_1_0_0_1_n_n 64 rfl rfl).symm k) = ix2 k o := funext fun a => Fin.ext (by
    match a with
    | ⟨0, _⟩ => exact (dot1_rhs_0 _ _).trans hk
    | ⟨1, _⟩ => exact dot1_rhs_1 _ _)
  rw [el, er]

/-! ## The two reshapes and the bias row -/

/-- The [128, 64, 64] block viewed [8192, 64] reads, at (p·64 + q, d), the block at (p, q, d). -/
theorem flat1_apply {α : Type} (x : S128x64x64.Idx → α) (p : Fin 128) (q d : Fin 64) :
    shapeCast S8192x64 x shapeCasts_S128x64x64_S8192x64 (ix2 (row1 p q) d) = x (ix3 p q d) :=
  shapeCast_apply x shapeCasts_S128x64x64_S8192x64 _ _ (by
    rw [Shape.rowMajor_val_three, Shape.rowMajor_val_two]
    rfl)

/-- The [8192, 64] matrix viewed [128, 64, 64] reads, at (p, q, o), the matrix at (p·64 + q, o). -/
theorem unflat1_apply {α : Type} (y : S8192x64.Idx → α) (p : Fin 128) (q o : Fin 64) :
    shapeCast S128x64x64 y shapeCasts_S8192x64_S128x64x64 (ix3 p q o) = y (ix2 (row1 p q) o) :=
  shapeCast_apply y shapeCasts_S8192x64_S128x64x64 _ _ (by
    rw [Shape.rowMajor_val_three, Shape.rowMajor_val_two]
    rfl)

/-- The bias row broadcast over the 8192 rows reads, at (r, o), the bias at o. -/
theorem bias1_apply {α : Type} (b : S64.Idx → α) (r : Fin 8192) (o : Fin 64) :
    broadcastTo S8192x64 (shapeCast S1x64 b shapeCasts_S64_S1x64) broadcasts_S1x64_S8192x64 (ix2 r o) = b (ix1 o) :=
  (broadcastTo_1b_ab_apply _ broadcasts_S1x64_S8192x64 r o).trans (shapeCast_a_1a_apply b shapeCasts_S64_S1x64 0 o)

/-! ## The linear layer -/

/-- The kernel's linear layer of one block: flatten, change format, multiply, add the bias row, unflatten. -/
def lin1 (x : FVec Ideal S128x64x64 .f32) (w : FVec Ideal S64x64 .bf16) (b : FVec Ideal S64 .f32) : FVec Ideal S128x64x64 .f32 :=
  shapeCast S128x64x64
    (addf
      (matmul dot_S8192x64_S64x64_S8192x64_1_0_0_1_n_n none
        (truncf .bf16 (shapeCast S8192x64 x shapeCasts_S128x64x64_S8192x64) bitsLt_bf16_f32)
        (shapeCast S64x64 w shapeCasts_S64x64_S64x64) (constant S8192x64 .f32 0x00000000#32))
      (broadcastTo S8192x64 (shapeCast S1x64 b shapeCasts_S64_S1x64) broadcasts_S1x64_S8192x64))
    shapeCasts_S8192x64_S128x64x64

/-- The linear layer at (p, q, o): the row (p, q, ·) of the block against column o of the weight, plus the bias at o. -/
theorem lin1_apply (x : FVec Ideal S128x64x64 .f32) (w : FVec Ideal S64x64 .bf16) (b : FVec Ideal S64 .f32)
    (p : Fin 128) (q o : Fin 64) :
    lin1 x w b (ix3 p q o) = (∑ d : Fin 64, x (ix3 p q d) * w (ix2 d o)) + b (ix1 o) := by
  unfold lin1
  refine (unflat1_apply _ p q o).trans ?_
  refine (addf_apply _ _ _).trans ?_
  rw [bias1_apply, mm1_apply, shapeCast_self]
  refine congrArg (· + b (ix1 o)) (Finset.sum_congr rfl fun d _ => ?_)
  refine congrArg (· * w (ix2 d o)) ?_
  exact flat1_apply x p q d

/-! ## The column maximum and the column normalizer of the score array -/

/-- The column maxima of the score array, as a one-row matrix. -/
def cmax (sc : FVec Ideal S4096x64 .f32) : FVec Ideal S1x64 .f32 :=
  shapeCast S1x64
    (multiReduction (F := Ideal) .maximumf [0] S64 (shapeCast S4096x64 sc shapeCasts_S4096x64_S4096x64) 0xFF800000#32
      reduces_S4096x64_S64 (.inl rfl) rfl)
    shapeCasts_S64_S1x64

/-- Its entry at column q is the column's maximum. -/
theorem cmax_apply (sc : FVec Ideal S4096x64 .f32) (u : Fin 1) (q : Fin 64) :
    cmax sc (ix2 u q) = Cert.Attn.colMax sc q := by
  unfold cmax
  refine (shapeCast_a_1a_apply _ shapeCasts_S64_S1x64 u q).trans ?_
  rw [shapeCast_self]
  exact Cert.Lib.colMax_apply sc 0xFF800000#32 reduces_S4096x64_S64 (.inl rfl) rfl q

/-- The column normalizers of the score array, as a one-row matrix. -/
def cden (sc : FVec Ideal S4096x64 .f32) : FVec Ideal S1x64 .f32 :=
  shapeCast S1x64
    (multiReduction (F := Ideal) .add [0] S64
      (exp (subf (shapeCast S4096x64 sc shapeCasts_S4096x64_S4096x64) (broadcastTo S4096x64 (cmax sc) broadcasts_S1x64_S4096x64)))
      0x00000000#32 reduces_S4096x64_S64 (.inl rfl) rfl)
    shapeCasts_S64_S1x64

/-- Its entry at column q is the column's normalizer. -/
theorem cden_apply (sc : FVec Ideal S4096x64 .f32) (u : Fin 1) (q : Fin 64) :
    cden sc (ix2 u q) = Cert.Attn.colDen sc q := by
  unfold cden
  refine (shapeCast_a_1a_apply _ shapeCasts_S64_S1x64 u q).trans ?_
  refine (Cert.Lib.colAdd_apply _ reduces_S4096x64_S64 (.inl rfl) rfl q).trans ?_
  refine Finset.sum_congr rfl fun (t : Fin 4096) _ => ?_
  refine (exp_apply _ _).trans (congrArg Ideal.exp ?_)
  refine (subf_apply _ _ _).trans ?_
  rw [broadcastTo_1b_ab_apply, cmax_apply, shapeCast_self]

/-! ## The weight of a tile entry -/

/-- exp (tile − column maximum) / column normalizer, over the [128, 64] tile. -/
def attnT (sc : FVec Ideal S4096x64 .f32) (tile : FVec Ideal S128x64 .f32) : FVec Ideal S128x64 .f32 :=
  divf
    (exp (subf (shapeCast S128x64 tile shapeCasts_S128x64_S128x64) (broadcastTo S128x64 (cmax sc) broadcasts_S1x64_S128x64)))
    (broadcastTo S128x64 (cden sc) broadcasts_S1x64_S128x64)

theorem attnT_apply (sc : FVec Ideal S4096x64 .f32) (tile : FVec Ideal S128x64 .f32) (p : Fin 128) (q : Fin 64) :
    attnT sc tile (ix2 p q)
      = Ideal.div (Ideal.exp (tile (ix2 p q) - Cert.Attn.colMax sc q)) (Cert.Attn.colDen sc q) := by
  unfold attnT
  refine (divf_apply _ _ _).trans ?_
  have hden : broadcastTo S128x64 (cden sc) broadcasts_S1x64_S128x64 (ix2 p q) = Cert.Attn.colDen sc q :=
    (broadcastTo_1b_ab_apply _ broadcasts_S1x64_S128x64 p q).trans (cden_apply sc 0 q)
  have hmax : broadcastTo S128x64 (cmax sc) broadcasts_S1x64_S128x64 (ix2 p q) = Cert.Attn.colMax sc q :=
    (broadcastTo_1b_ab_apply _ broadcasts_S1x64_S128x64 p q).trans (cmax_apply sc 0 q)
  rw [hden]
  refine congrArg (fun z => Ideal.div z (Cert.Attn.colDen sc q)) ?_
  refine (exp_apply _ _).trans (congrArg Ideal.exp ?_)
  refine (subf_apply _ _ _).trans ?_
  rw [hmax, shapeCast_self]

/-- A [128, 64] matrix repeated along a new last axis reads, at (p, q, d), the matrix at (p, q). -/
theorem spread1_apply {α : Type} (v : S128x64.Idx → α) (p : Fin 128) (q d : Fin 64) :
    broadcastTo S128x64x64 (shapeCast S128x64x1 v shapeCasts_S128x64_S128x64x1) broadcasts_S128x64x1_S128x64x64 (ix3 p q d)
      = v (ix2 p q) :=
  (broadcastTo_apply _ broadcasts_S128x64x1_S128x64x64 (ix3 p q d) (ix3 p q (0 : Fin 1)) (fun a => by
    match a with
    | ⟨0, _⟩ => show p.val = if (128 : Nat) = 1 then 0 else p.val; rw [if_neg (by decide)]
    | ⟨1, _⟩ => show q.val = if (64 : Nat) = 1 then 0 else q.val; rw [if_neg (by decide)]
    | ⟨2, _⟩ => show 0 = if (1 : Nat) = 1 then 0 else d.val; rw [if_pos rfl])).trans
  (shapeCast_apply v shapeCasts_S128x64_S128x64x1 _ _ (by
    rw [Shape.rowMajor_val_three, Shape.rowMajor_val_two]
    show p.val * 64 + q.val = (p.val * 64 + q.val) * 1 + 0
    omega))

/-! ## The stored value -/

/-- The stored value is the first block plus the spread weight times the linear layer of the second. -/
theorem pay1_eq (x0 x1 : Vec Ideal S128x64x64 .f32) (w : Vec Ideal S64x64 .bf16) (b : Vec Ideal S64 .f32)
    (sc : Vec Ideal S4096x64 .f32) (tile : Vec Ideal S128x64 .f32) :
    k1_pay1 (F := Ideal) x0 x1 w b sc tile
      = addf x0 (mulf
          (broadcastTo S128x64x64 (shapeCast S128x64x1 (attnT sc tile) shapeCasts_S128x64_S128x64x1) broadcasts_S128x64x1_S128x64x64)
          (lin1 x1 w b)) := rfl

/-- The combine kernel's stored value at (p, q, d). -/
theorem pay1_apply (x0 x1 : Vec Ideal S128x64x64 .f32) (w : Vec Ideal S64x64 .bf16) (b : Vec Ideal S64 .f32)
    (sc : Vec Ideal S4096x64 .f32) (tile : Vec Ideal S128x64 .f32) (p : Fin 128) (q d : Fin 64) :
    k1_pay1 (F := Ideal) x0 x1 w b sc tile (ix3 p q d)
      = x0 (ix3 p q d) + Ideal.div (Ideal.exp (tile (ix2 p q) - Cert.Attn.colMax sc q)) (Cert.Attn.colDen sc q)
          * ((∑ d' : Fin 64, x1 (ix3 p q d') * w (ix2 d' d)) + b (ix1 d)) := by
  rw [pay1_eq]
  refine (addf_apply _ _ _).trans ?_
  refine congrArg (x0 (ix3 p q d) + ·) ?_
  refine (mulf_apply _ _ _).trans ?_
  rw [spread1_apply, attnT_apply, lin1_apply]

end Cert.KernelIdeal.Pay

end
-- ==== Proof.CombineArray.lean ====
/-
  The second region's output array after the run is the result array of what the region found.

  What time block t writes back is its body's stored value of the blocks it read. Entry (p, q, d) of that value is the
  sequence entry plus weight times linear layer, where the weight is exp (score − column maximum) / column normalizer
  taken over the WHOLE score array the region found, the score entry being row 128 t + p of it, and the linear layer is
  row 128 t + p of the second sequence against the weight matrix the region was handed (coordinates exchanged) plus
  the bias: the result array at (128 t + p, q, d). Every row r of the array lies in time block r / 128.
-/
import proofs.«118970_j52578989638287_2_alg».proof.Proof.CombineBlocks
import proofs.«118970_j52578989638287_2_alg».proof.Proof.Payload1
import proofs.«118970_j52578989638287_2_alg».proof.Proof.Spec

set_option maxRecDepth 16384

noncomputable section

open scoped BigOperators

namespace Cert.KernelIdeal.CombineRegion

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- The result array of what the region finds: the two sequences, the third weight and bias, and the score array. -/
abbrev found (c : Dev nD) : S4096x64x64.Idx → EReal :=
  Cert.Attn.out (V c main_arg0) (V c main_arg1) (Cert.Attn.swap (V c main_v5)) (V c main_arg7) (V c main_v6)

/-- What time block t writes back is the result array read through block t. -/
theorem flushed_eq (c : Dev nD) (t : Fin cfg1.N) :
    (dat1 V c).flushed 5 t = ((cfg1.win 5).blk t).view.read (Elt Ideal) (found V c) := by
  show (cfg1.win 5).cut (grid1.coords t) ((dat1 V c).after 5 t) = _
  rw [after1_5]
  unfold outsAt1
  rw [out_piece]
  funext j
  obtain ⟨p, q, d, rfl⟩ : ∃ (p : Fin 128) (q d : Fin 64), j = ix3 p q d := ⟨j 0, j 1, j 2, eq_ix3 j⟩
  show k1_pay1 (F := Ideal) _ _ _ _ _ _ (ix3 p q d) = found V c (((cfg1.win 5).blk t).view.emb (ix3 p q d))
  rw [Cert.KernelIdeal.Pay.pay1_apply, emb_out, tile_apply, blk_sc]
  show _ = Cert.Attn.outAt (V c main_arg0) (V c main_arg1) (Cert.Attn.swap (V c main_v5)) (V c main_arg7) (V c main_v6)
    (row t p) q d
  unfold Cert.Attn.outAt Cert.Attn.attn Cert.Attn.lin
  simp only [blk_x, blk_y, blk_wv, blk_bv, Cert.Attn.swap_ix2]

/-- An index of the array is in block t iff its row is among the block's 128 rows. -/
theorem mem_blk (t : Fin cfg1.N) (i : S4096x64x64.Idx) :
    i ∈ ((cfg1.win 5).blk t).view.set ↔ ∀ a : Fin 3, win1_5.index t a * S128x64x64.size a ≤ (i a).val ∧ (i a).val < win1_5.index t a * S128x64x64.size a + S128x64x64.size a := by
  show i ∈ ((View.whole main_v7).slice (win1_5.rect t)).set ↔ _
  rw [View.set_slice_whole, Rect.mem_set_unit]
  exact Iff.rfl

/-- Every index of the array lies in some block that is written back. -/
theorem cover (i : S4096x64x64.Idx) :
    ∃ t : Fin cfg1.N, (cfg1.win 5).flush t = true ∧ i ∈ ((cfg1.win 5).blk t).view.set := by
  have hi0 : (i 0).val < 4096 := (i 0).isLt
  have hi1 : (i 1).val < 64 := (i 1).isLt
  have hi2 : (i 2).val < 64 := (i 2).isLt
  have hN : cfg1.N = 32 := N_1
  let t : Fin cfg1.N := ⟨(i 0).val / 128, by omega⟩
  refine ⟨t, flush1_5 t, ?_⟩
  rw [mem_blk]
  obtain ⟨-, -, -, -, -, -, -, -, -, -, -, e0, e1, e2, -⟩ := idx_facts t
  have ht : t.val = (i 0).val / 128 := rfl
  intro a
  match a with
  | ⟨0, _⟩ => show win1_5.index t (0 : Fin 3) * 128 ≤ (i 0).val ∧ (i 0).val < win1_5.index t (0 : Fin 3) * 128 + 128; omega
  | ⟨1, _⟩ => show win1_5.index t (1 : Fin 3) * 64 ≤ (i 1).val ∧ (i 1).val < win1_5.index t (1 : Fin 3) * 64 + 64; omega
  | ⟨2, _⟩ => show win1_5.index t (2 : Fin 3) * 64 ≤ (i 2).val ∧ (i 2).val < win1_5.index t (2 : Fin 3) * 64 + 64; omega

/-- The array after the run. -/
theorem final (c : Dev nD) : (dat1 V c).arrAt 5 cfg1.N = found V c :=
  (dat1 V c).arrAt_eq_of_cover 5 (found V c) (fun t _ => flushed_eq V c t) (cover)

end Cert.KernelIdeal.CombineRegion

end
-- ==== Proof.KernelValue.lean ====
/-
  The idealized kernel's result, as one function of its eight arguments.

  The result array ends at what the second region's write-backs leave: the result formula over the two sequences, the
  third weight and bias as launched, and the score array the second region found. That score array is what the first
  region's write-backs left: the score formula over the two sequences and the first two weights and biases as
  launched. Together: the whole function of the eight launch arrays.
-/
import proofs.«118970_j52578989638287_2_alg».proof.Proof.KernelRun
import proofs.«118970_j52578989638287_2_alg».proof.Proof.Entry
import proofs.«118970_j52578989638287_2_alg».proof.Proof.ScoreArray
import proofs.«118970_j52578989638287_2_alg».proof.Proof.CombineArray

set_option maxRecDepth 16384

noncomputable section

namespace Cert.KernelIdeal.Whole

open Cert.KernelIdeal Cert.KernelIdeal.Gen
open Idealize.ShloMosaic Idealize.ShloMosaic.TcCoe Idealize.SL.Sem

variable (m : (ℓ : Loc nD τ sig) → Buf (Elt Ideal) ℓ) (ρ : Dev nD → PrngReg)

/-- The whole function at the launch arrays of core c. -/
abbrev value (c : Dev nD) : Buf (Elt Ideal) ((c.tc : Thread nD τ).loc main_v7) :=
  Cert.Attn.result (m ((c.tc : Thread nD τ).loc main_arg0)) (m ((c.tc : Thread nD τ).loc main_arg1))
    (m ((c.tc : Thread nD τ).loc main_arg2)) (m ((c.tc : Thread nD τ).loc main_arg3))
    (m ((c.tc : Thread nD τ).loc main_arg4)) (m ((c.tc : Thread nD τ).loc main_arg5))
    (m ((c.tc : Thread nD τ).loc main_arg6)) (m ((c.tc : Thread nD τ).loc main_arg7))

/-- The score array the second region finds is the score formula of the launch arrays. -/
theorem score_found (c : Dev nD) : V2 m ρ c main_v6
    = Cert.Attn.score (m ((c.tc : Thread nD τ).loc main_arg0)) (m ((c.tc : Thread nD τ).loc main_arg1))
        (m ((c.tc : Thread nD τ).loc main_arg2)) (m ((c.tc : Thread nD τ).loc main_arg3))
        (m ((c.tc : Thread nD τ).loc main_arg4)) (m ((c.tc : Thread nD τ).loc main_arg5)) := by
  rw [boundary_score, Cert.KernelIdeal.ScoreRegion.final (V1 m ρ) c]
  show Cert.Attn.score (V1 m ρ c main_arg0) (V1 m ρ c main_arg1) (Cert.Attn.swap (V1 m ρ c main_v1)) (V1 m ρ c main_arg3)
    (Cert.Attn.swap (V1 m ρ c main_v3)) (V1 m ρ c main_arg5) = _
  rw [Entry.x_entry, Entry.y_entry, Entry.wq_entry, Entry.bq_entry, Entry.wk_entry, Entry.bk_entry]

/-- The last boundary's contents at the result array are the whole function of the launch arrays. -/
theorem boundary_value (c : Dev nD) : W3 m ρ c (Proc.devRef .tc main_v7) = value m c := by
  rw [boundary_result, Cert.KernelIdeal.CombineRegion.final (V2 m ρ) c]
  show Cert.Attn.out (V2 m ρ c main_arg0) (V2 m ρ c main_arg1) (Cert.Attn.swap (V2 m ρ c main_v5)) (V2 m ρ c main_arg7)
    (V2 m ρ c main_v6) = _
  rw [Entry.x_entry2, Entry.y_entry2, Entry.wv_entry2, Entry.bv_entry2, score_found]
  rfl

/-- Every weakly fair execution terminates, nothing faulting, with the result array at the whole function of the
    launch arrays and the eight arguments as launched. -/
theorem run : θ_run defs (onTc (τ := τ) (main (F := Ideal))) ⟨m, fun _ => 0, ρ⟩ (fun r => ∀ c : Dev nD,
      r.2.mem ((c.tc : Thread nD τ).loc main_v7) = value m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨(h c).1.trans (boundary_value m ρ c), (h c).2⟩) (run_boundary m ρ)

end Cert.KernelIdeal.Whole

end
-- ==== Proof.RefValue.lean ====
/-
  The reference's last stage is the specified function.

  The reference computes, one array operation at a time, from x0, x1 : [4096, 64, 64] (time t, stream s, feature d),
  weights x2, x4, x6 : [64, 64] and biases x3, x5, x7 : [64]:
    stages 0-3, 4-7, 8-11   a contraction over the last axis against a weight's second axis, plus the bias broadcast
                            along the last axis: at (t, s, o) this is (∑ d, x (t, s, d) · W (o, d)) + b o, the linear
                            layer of the specification (of x0, x2, x3; of x1, x4, x5; of x1, x6, x7);
    stages 12-16            the product of the first two layers summed over o from the zero word (which is 0 and
                            drops out), kept with a last axis of size one, times the word 0x3E000000: at (t, s, 0) the
                            gating score at (t, s);
    stages 17-19            down the time axis, the fold of max from the word 0xFF800000, and then one more max with
                            that same word: since max b (fold max b f) = fold max b f for every b, this is the column
                            maximum at s, with the word never evaluated;
    stages 20-24            exp (score − column maximum) at (t, s, 0), summed over time from the zero word: the
                            normalizer of column s;
    stages 25-27            the quotient of the two: the weight of (t, s);
    stages 28-30            the weight broadcast along the feature axis, times the third linear layer, added to x0:
                            the result at (t, s, d).
  Each lemma reads one group of stages at explicit coordinates; the index maps of the broadcasts and reductions are
  identified coordinate by coordinate.
-/
import proofs.«118970_j52578989638287_2_alg».proof.Proof.Gen.ReferenceIdeal.Read
import proofs.«118970_j52578989638287_2_alg».proof.Proof.Spec

noncomputable section

open scoped BigOperators

namespace Cert.ReferenceIdeal.RefValue

open Cert.ReferenceIdeal Cert.ReferenceIdeal.Gen Cert.ReferenceIdeal.Read Idealize.ShloMosaic Idealize.ShloMosaic.ValueIdx

/-- The three-coordinate index read by the left operand of a product over the last axis. -/
theorem lidx0 (t : Fin 4096) (s o k : Fin 64) : lidx_main_v0 (ix3 t s o) k = ix3 t s k :=
  funext fun a => by match a with | ⟨0, _⟩ => rfl | ⟨1, _⟩ => rfl | ⟨2, _⟩ => rfl
theorem ridx0 (t : Fin 4096) (s o k : Fin 64) : ridx_main_v0 (ix3 t s o) k = ix2 o k :=
  funext fun a => by match a with | ⟨0, _⟩ => rfl | ⟨1, _⟩ => rfl
theorem bidx0 (t : Fin 4096) (s o : Fin 64) : idx_main_v1 (idx_main_v2 (ix3 t s o)) = ix1 o :=
  funext fun a => by match a with | ⟨0, _⟩ => rfl

/-- Stage 3 at (t, s, o) is the linear layer of x0 with weights x2 and bias x3. -/
theorem lin_q (x0 : (⟨S4096x64x64, .f32⟩ : BufTy).Contents (Elt Ideal)) (x2 : (⟨S64x64, .f32⟩ : BufTy).Contents (Elt Ideal))
    (x3 : (⟨S64, .f32⟩ : BufTy).Contents (Elt Ideal)) (t : Fin 4096) (s o : Fin 64) :
    val_main_v3 (F := Ideal) x0 x2 x3 (ix3 t s o) = Cert.Attn.lin x0 x2 x3 t s o := by
  rw [val_main_v3_apply, val_main_v0_apply, val_main_v2_apply, val_main_v1_apply, bidx0]
  simp only [lidx0, ridx0]
  rfl
theorem lidx4 (t : Fin 4096) (s o k : Fin 64) : lidx_main_v4 (ix3 t s o) k = ix3 t s k :=
  funext fun a => by match a with | ⟨0, _⟩ => rfl | ⟨1, _⟩ => rfl | ⟨2, _⟩ => rfl
theorem ridx4 (t : Fin 4096) (s o k : Fin 64) : ridx_main_v4 (ix3 t s o) k = ix2 o k :=
  funext fun a => by match a with | ⟨0, _⟩ => rfl | ⟨1, _⟩ => rfl
theorem bidx4 (t : Fin 4096) (s o : Fin 64) : idx_main_v5 (idx_main_v6 (ix3 t s o)) = ix1 o :=
  funext fun a => by match a with | ⟨0, _⟩ => rfl

/-- Stage 7 at (t, s, o) is the linear layer of x1 with weights x4 and bias x5. -/
theorem lin_k (x1 : (⟨S4096x64x64, .f32⟩ : BufTy).Contents (Elt Ideal)) (x4 : (⟨S64x64, .f32⟩ : BufTy).Contents (Elt Ideal))
    (x5 : (⟨S64, .f32⟩ : BufTy).Contents (Elt Ideal)) (t : Fin 4096) (s o : Fin 64) :
    val_main_v7 (F := Ideal) x1 x4 x5 (ix3 t s o) = Cert.Attn.lin x1 x4 x5 t s o := by
  rw [val_main_v7_apply, val_main_v4_apply, val_main_v6_apply, val_main_v5_apply, bidx4]
  simp only [lidx4, ridx4]
  rfl

theorem lidx8 (t : Fin 4096) (s o k : Fin 64) : lidx_main_v8 (ix3 t s o) k = ix3 t s k :=
  funext fun a => by match a with | ⟨0, _⟩ => rfl | ⟨1, _⟩ => rfl | ⟨2, _⟩ => rfl
theorem ridx8 (t : Fin 4096) (s o k : Fin 64) : ridx_main_v8 (ix3 t s o) k = ix2 o k :=
  funext fun a => by match a with | ⟨0, _⟩ => rfl | ⟨1, _⟩ => rfl
theorem bidx8 (t : Fin 4096) (s o : Fin 64) : idx_main_v9 (idx_main_v10 (ix3 t s o)) = ix1 o :=
  funext fun a => by match a with | ⟨0, _⟩ => rfl

/-- Stage 11 at (t, s, o) is the linear layer of x1 with weights x6 and bias x7. -/
theorem lin_v (x1 : (⟨S4096x64x64, .f32⟩ : BufTy).Contents (Elt Ideal)) (x6 : (⟨S64x64, .f32⟩ : BufTy).Contents (Elt Ideal))
    (x7 : (⟨S64, .f32⟩ : BufTy).Contents (Elt Ideal)) (t : Fin 4096) (s o : Fin 64) :
    val_main_v11 (F := Ideal) x1 x6 x7 (ix3 t s o) = Cert.Attn.lin x1 x6 x7 t s o := by
  rw [val_main_v11_apply, val_main_v8_apply, val_main_v10_apply, val_main_v9_apply, bidx8]
  simp only [lidx8, ridx8]
  rfl

theorem idx14 (t : Fin 4096) (s : Fin 64) (z : Fin 1) : idx_main_v14 (ix3 t s z) = ix2 t s :=
  funext fun a => by match a with | ⟨0, _⟩ => rfl | ⟨1, _⟩ => rfl
theorem idx13 (t : Fin 4096) (s k : Fin 64) : idx_main_v13 (ix2 t s) k = ix3 t s k :=
  funext fun a => by match a with | ⟨0, _⟩ => rfl | ⟨1, _⟩ => rfl | ⟨2, _⟩ => rfl

/-- Stage 16 at (t, s, 0) is the gating score at (t, s). -/
theorem score_at (x0 x1 : (⟨S4096x64x64, .f32⟩ : BufTy).Contents (Elt Ideal)) (x2 : (⟨S64x64, .f32⟩ : BufTy).Contents (Elt Ideal))
    (x3 : (⟨S64, .f32⟩ : BufTy).Contents (Elt Ideal)) (x4 : (⟨S64x64, .f32⟩ : BufTy).Contents (Elt Ideal))
    (x5 : (⟨S64, .f32⟩ : BufTy).Contents (Elt Ideal)) (t : Fin 4096) (s : Fin 64) (z : Fin 1) :
    val_main_v16 (F := Ideal) x0 x1 x2 x3 x4 x5 (ix3 t s z) = Cert.Attn.scoreAt x0 x1 x2 x3 x4 x5 t s := by
  rw [val_main_v16_apply, val_main_v14_apply, val_main_v13_apply, val_main_v15_apply, val_main_cst_0_apply,
    val_main_cst_apply, idx14]
  simp only [idx13, val_main_v12_apply, lin_q, lin_k, Ideal.ofBits_def, Ideal.mulf_def, Ideal.ofBits_zero_f32, zero_add]
  rfl
/-- Dropping the time axis of [4096, 64, 1] leaves [64, 1]. -/
theorem red_d0 : S4096x64x1.Reduces [0] S64x1 := by decide

/-- The reduced index (s, z) with time k put back is (k, s, z). -/
theorem lift_d0 (s : Fin 64) (z : Fin 1) (k : Fin (S4096x64x1.size 0)) :
    red_d0.lift (ix2 s z) k = ix3 (⟨k.val, k.isLt⟩ : Fin 4096) s z := by
  funext c; apply Fin.ext
  fin_cases c <;> rfl

/-- Stage 17 at (s, 0): the fold of max over time, from the starting word, of the scores of column s. -/
theorem v17_at (x0 x1 : (⟨S4096x64x64, .f32⟩ : BufTy).Contents (Elt Ideal)) (x2 : (⟨S64x64, .f32⟩ : BufTy).Contents (Elt Ideal))
    (x3 : (⟨S64, .f32⟩ : BufTy).Contents (Elt Ideal)) (x4 : (⟨S64x64, .f32⟩ : BufTy).Contents (Elt Ideal))
    (x5 : (⟨S64, .f32⟩ : BufTy).Contents (Elt Ideal)) (s : Fin 64) (z : Fin 1) :
    val_main_v17 (F := Ideal) x0 x1 x2 x3 x4 x5 (ix2 s z) = Cert.Attn.colMax (Cert.Attn.score x0 x1 x2 x3 x4 x5) s := by
  unfold val_main_v17
  rw [Host.reduce_eq_fold_single FloatOps.maximumf _ _ reducesTo_S4096x64x1_S64x1_d0 red_d0 h_S_]
  have hf : (val_main_v16 (F := Ideal) x0 x1 x2 x3 x4 x5 ∘ red_d0.lift (ix2 s z))
      = fun t : Fin 4096 => Cert.Attn.score x0 x1 x2 x3 x4 x5 (ix2 t s) :=
    funext fun k => (congrArg (val_main_v16 (F := Ideal) x0 x1 x2 x3 x4 x5) (lift_d0 s z k)).trans
      (score_at x0 x1 x2 x3 x4 x5 _ s z)
  exact congrArg (fun f => Finset.fold max (Ideal.ofBits .f32 0xFF800000#32) f (Finset.univ : Finset (Fin 4096))) hf
/-- Stage 19 at (s, 0): one more max with the fold's own starting value changes nothing, so it is the column maximum. -/
theorem col_max (x0 x1 : (⟨S4096x64x64, .f32⟩ : BufTy).Contents (Elt Ideal)) (x2 : (⟨S64x64, .f32⟩ : BufTy).Contents (Elt Ideal))
    (x3 : (⟨S64, .f32⟩ : BufTy).Contents (Elt Ideal)) (x4 : (⟨S64x64, .f32⟩ : BufTy).Contents (Elt Ideal))
    (x5 : (⟨S64, .f32⟩ : BufTy).Contents (Elt Ideal)) (s : Fin 64) (z : Fin 1) :
    val_main_v19 (F := Ideal) x0 x1 x2 x3 x4 x5 (ix2 s z) = Cert.Attn.colMax (Cert.Attn.score x0 x1 x2 x3 x4 x5) s := by
  rw [val_main_v19_apply, val_main_v18_apply, val_main_cst_2_apply, v17_at]
  unfold Cert.Attn.colMax
  simp only [Ideal.maximumf_def, Ideal.ofBits_def]
  exact max_eq_right ((Finset.le_fold_max _).mpr (Or.inl le_rfl))

theorem idx2021 (t : Fin 4096) (s : Fin 64) (z : Fin 1) :
    idx_main_v20 (idx_main_v21 (ix3 t s z)) = ix2 s (⟨0, Nat.one_pos⟩ : Fin 1) :=
  funext fun a => by match a with | ⟨0, _⟩ => rfl | ⟨1, _⟩ => rfl

/-- Stage 23 at (t, s, 0): the exponential of the score less the column maximum. -/
theorem exp_at (x0 x1 : (⟨S4096x64x64, .f32⟩ : BufTy).Contents (Elt Ideal)) (x2 : (⟨S64x64, .f32⟩ : BufTy).Contents (Elt Ideal))
    (x3 : (⟨S64, .f32⟩ : BufTy).Contents (Elt Ideal)) (x4 : (⟨S64x64, .f32⟩ : BufTy).Contents (Elt Ideal))
    (x5 : (⟨S64, .f32⟩ : BufTy).Contents (Elt Ideal)) (t : Fin 4096) (s : Fin 64) (z : Fin 1) :
    val_main_v23 (F := Ideal) x0 x1 x2 x3 x4 x5 (ix3 t s z)
      = Ideal.exp (Cert.Attn.score x0 x1 x2 x3 x4 x5 (ix2 t s) - Cert.Attn.colMax (Cert.Attn.score x0 x1 x2 x3 x4 x5) s) := by
  rw [val_main_v23_apply, val_main_v22_apply, val_main_v21_apply, val_main_v20_apply, idx2021, col_max, score_at]
  rfl

theorem idx24 (s : Fin 64) (z : Fin 1) (k : Fin 4096) : idx_main_v24 (ix2 s z) k = ix3 k s z :=
  funext fun a => by match a with | ⟨0, _⟩ => rfl | ⟨1, _⟩ => rfl | ⟨2, _⟩ => rfl

/-- Stage 24 at (s, 0): the normalizer of column s. -/
theorem col_den (x0 x1 : (⟨S4096x64x64, .f32⟩ : BufTy).Contents (Elt Ideal)) (x2 : (⟨S64x64, .f32⟩ : BufTy).Contents (Elt Ideal))
    (x3 : (⟨S64, .f32⟩ : BufTy).Contents (Elt Ideal)) (x4 : (⟨S64x64, .f32⟩ : BufTy).Contents (Elt Ideal))
    (x5 : (⟨S64, .f32⟩ : BufTy).Contents (Elt Ideal)) (s : Fin 64) (z : Fin 1) :
    val_main_v24 (F := Ideal) x0 x1 x2 x3 x4 x5 (ix2 s z) = Cert.Attn.colDen (Cert.Attn.score x0 x1 x2 x3 x4 x5) s := by
  rw [val_main_v24_apply, val_main_cst_3_apply]
  simp only [idx24, exp_at, Ideal.ofBits_def, Ideal.ofBits_zero_f32, zero_add]
  rfl

theorem idx2526 (t : Fin 4096) (s : Fin 64) (z : Fin 1) :
    idx_main_v25 (idx_main_v26 (ix3 t s z)) = ix2 s (⟨0, Nat.one_pos⟩ : Fin 1) :=
  funext fun a => by match a with | ⟨0, _⟩ => rfl | ⟨1, _⟩ => rfl

/-- Stage 27 at (t, s, 0): the weight of (t, s). -/
theorem attn_at (x0 x1 : (⟨S4096x64x64, .f32⟩ : BufTy).Contents (Elt Ideal)) (x2 : (⟨S64x64, .f32⟩ : BufTy).Contents (Elt Ideal))
    (x3 : (⟨S64, .f32⟩ : BufTy).Contents (Elt Ideal)) (x4 : (⟨S64x64, .f32⟩ : BufTy).Contents (Elt Ideal))
    (x5 : (⟨S64, .f32⟩ : BufTy).Contents (Elt Ideal)) (t : Fin 4096) (s : Fin 64) (z : Fin 1) :
    val_main_v27 (F := Ideal) x0 x1 x2 x3 x4 x5 (ix3 t s z) = Cert.Attn.attn (Cert.Attn.score x0 x1 x2 x3 x4 x5) t s := by
  rw [val_main_v27_apply, val_main_v26_apply, val_main_v25_apply, idx2526, col_den, exp_at]
  rfl

theorem idx28 (t : Fin 4096) (s d : Fin 64) : idx_main_v28 (ix3 t s d) = ix3 t s (⟨0, Nat.one_pos⟩ : Fin 1) :=
  funext fun a => by match a with | ⟨0, _⟩ => rfl | ⟨1, _⟩ => rfl | ⟨2, _⟩ => rfl

/-- The reference's last stage is the specified function of the eight arguments. -/
theorem result_eq (x0 x1 : (⟨S4096x64x64, .f32⟩ : BufTy).Contents (Elt Ideal)) (x2 : (⟨S64x64, .f32⟩ : BufTy).Contents (Elt Ideal)) (x3 : (⟨S64, .f32⟩ : BufTy).Contents (Elt Ideal)) (x4 : (⟨S64x64, .f32⟩ : BufTy).Contents (Elt Ideal)) (x5 : (⟨S64, .f32⟩ : BufTy).Contents (Elt Ideal)) (x6 : (⟨S64x64, .f32⟩ : BufTy).Contents (Elt Ideal)) (x7 : (⟨S64, .f32⟩ : BufTy).Contents (Elt Ideal)) :
    Cert.ReferenceIdeal.Read.val_main_v30 (F := Ideal) x0 x1 x2 x3 x4 x5 x6 x7 = Cert.Attn.result x0 x1 x2 x3 x4 x5 x6 x7 := by
  funext j
  obtain ⟨t, s, d, rfl⟩ : ∃ (t : Fin 4096) (s d : Fin 64), j = ix3 t s d := ⟨j 0, j 1, j 2, eq_ix3 j⟩
  rw [val_main_v30_apply, val_main_v29_apply, val_main_v28_apply, idx28, attn_at, lin_v]
  rfl

end Cert.ReferenceIdeal.RefValue

end
-- ==== Proof.lean ====
/-
  The certificate: a two-kernel gated attention over a sequence against its plain reference, on the extended reals.

  Both programs compute, from two [4096, 64, 64] sequences x and y, three 64 × 64 weights and three bias rows,
    x (t, s, d) + softmax over t of score (·, s) at t, times (y (t, s, ·) · Wv (d, ·) + bv d),
    score (t, s) = (∑ o, (x (t, s, ·) · Wq (o, ·) + bq o) (y (t, s, ·) · Wk (o, ·) + bk o)) / 8,
  the softmax written as exp (score − column maximum) over the column sum of those exponentials (the specification module states each piece).
  The kernel transposes the weights on the host, computes the score array in a first kernel over sixteen time blocks
  and stores it, and in a second kernel over thirty-two time blocks recomputes the column maximum and normalizer from
  the whole stored score array at every block and combines. The reference computes the same formula stage by stage.
  Over the extended reals the two are the same sums, products, maxima and quotients of the same terms in the same
  order, with the same float words 0x3E000000 and 0xFF800000 on both sides, so the equality uses no property of the
  inputs beyond their being extended reals: the finiteness precondition is not opened.
  The three frames: the two kernel programs' are the generated frame proofs; the reference's is its generated run with
  the result dropped. The ideal pass rewrote nothing, so the preservation claim is trivially true.
-/
import proofs.«118970_j52578989638287_2_alg».proof.Defs
import proofs.«118970_j52578989638287_2_alg».proof.Proof.Gen.Kernel
import proofs.«118970_j52578989638287_2_alg».proof.Proof.Gen.Kernel.Skeleton
import proofs.«118970_j52578989638287_2_alg».proof.Proof.Gen.Kernel.Launch
import proofs.«118970_j52578989638287_2_alg».proof.Proof.Gen.Kernel.Points
import proofs.«118970_j52578989638287_2_alg».proof.Proof.Gen.Kernel.Frame
import proofs.«118970_j52578989638287_2_alg».proof.Proof.Gen.KernelIdeal
import proofs.«118970_j52578989638287_2_alg».proof.Proof.Gen.KernelIdeal.Skeleton
import proofs.«118970_j52578989638287_2_alg».proof.Proof.Gen.KernelIdeal.Launch
import proofs.«118970_j52578989638287_2_alg».proof.Proof.Gen.KernelIdeal.Points
import proofs.«118970_j52578989638287_2_alg».proof.Proof.Gen.KernelIdeal.Frame
import proofs.«118970_j52578989638287_2_alg».proof.Proof.Gen.ReferenceIdeal
import proofs.«118970_j52578989638287_2_alg».proof.Proof.Gen.ReferenceIdeal.Run
import proofs.«118970_j52578989638287_2_alg».proof.Proof.Gen.ReferenceIdeal.Read
import proofs.«118970_j52578989638287_2_alg».proof.Proof.Gen.Pre_finite_inputs
import proofs.«118970_j52578989638287_2_alg».proof.Proof.KernelValue
import proofs.«118970_j52578989638287_2_alg».proof.Proof.RefValue
import Idealize.ShloMosaic.Adequacy
import Idealize.ShloMosaic.Init

noncomputable section

namespace Cert.Proof

open Idealize.ShloMosaic Idealize.SL.Sem

theorem frame_k : Cert.frame_Kernel (hKernel := Cert.Kernel.Gen.facts) (hPre_finite_inputs := Cert.Pre_finite_inputs.Gen.facts) :=
  fun m ρ _ => Cert.Kernel.Gen.frame m ρ

theorem frame_ki : Cert.frame_KernelIdeal (hKernelIdeal := Cert.KernelIdeal.Gen.facts) (hPre_finite_inputs := Cert.Pre_finite_inputs.Gen.facts) :=
  fun m ρ _ => Cert.KernelIdeal.Gen.frame m ρ

theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2)
    (Cert.ReferenceIdeal.Value.run (F := Ideal) m ρ)

theorem preserves : Cert.preserves_Kernel_KernelIdeal := trivial

/-- The kernel's result array ends at the whole function of its launch arrays, the reference's at its last stage of
    its own, which is the same function; the launch arrays agree. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.KernelIdeal.Whole.value m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v30_eq, Cert.ReferenceIdeal.RefValue.result_eq,
    (hagree c).1, (hagree c).2.1, (hagree c).2.2.1, (hagree c).2.2.2.1, (hagree c).2.2.2.2.1,
    (hagree c).2.2.2.2.2.1, (hagree c).2.2.2.2.2.2.1, (hagree c).2.2.2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
